-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S991232x100 : Shape := ⟨2, ![991232, 100]⟩
abbrev S901120 : Shape := ⟨1, ![901120]⟩
abbrev S81920 : Shape := ⟨1, ![81920]⟩
abbrev S100x256 : Shape := ⟨2, ![100, 256]⟩
abbrev S256 : Shape := ⟨1, ![256]⟩
abbrev S256x47 : Shape := ⟨2, ![256, 47]⟩
abbrev S47 : Shape := ⟨1, ![47]⟩
abbrev S_ : Shape := ⟨0, ![]⟩

class Facts : Prop where
  bcast_S_S991232x100 : S_.BroadcastsInDim S991232x100 (![] : Fin 0 → Fin S991232x100.rank)
  reducesTo_S991232x100_S_d0_1 : S991232x100.ReducesTo [0, 1] S_
  h_S_ : 0 < S_.numel
  bcast_S_S100x256 : S_.BroadcastsInDim S100x256 (![] : Fin 0 → Fin S100x256.rank)
  reducesTo_S100x256_S_d0_1 : S100x256.ReducesTo [0, 1] S_
  bcast_S_S256 : S_.BroadcastsInDim S256 (![] : Fin 0 → Fin S256.rank)
  reducesTo_S256_S_d0 : S256.ReducesTo [0] S_
  bcast_S_S256x47 : S_.BroadcastsInDim S256x47 (![] : Fin 0 → Fin S256x47.rank)
  reducesTo_S256x47_S_d0_1 : S256x47.ReducesTo [0, 1] S_
  bcast_S_S47 : S_.BroadcastsInDim S47 (![] : Fin 0 → Fin S47.rank)
  reducesTo_S47_S_d0 : S47.ReducesTo [0] S_

variable [Facts]

def fn_part1 {F : FTy → Type} [FloatOps F] (main_arg8 : FVec F S256x47 .f32) (main_arg9 : FVec F S47 .f32) (main_arg10 : FVec F S256x47 .f32) (main_v13 : IVec S_ 1) (main_v16 : IVec S100x256 1) : IVec S_ 1 :=
  let main_c_5 : IVec S_ 1 := constantI S_ 1 1#1
  let main_v17 : IVec S_ 1 := (fun x v => Host.reduce IntOp.andi x v reducesTo_S100x256_S_d0_1 h_S_) main_v16 main_c_5
  let main_v18 : IVec S_ 1 := andi main_v13 main_v17
  let main_v19 : FVec F S256x47 .f32 := Host.absf main_arg8
  let main_cst_6 : FVec F S_ .f32 := constant S_ .f32 0x7F800000#32
  let main_v20 : FVec F S256x47 .f32 := broadcastInDim S256x47 ![] bcast_S_S256x47 main_cst_6
  let main_v21 : IVec S256x47 1 := cmpf .olt main_v19 main_v20
  let main_c_7 : IVec S_ 1 := constantI S_ 1 1#1
  let main_v22 : IVec S_ 1 := (fun x v => Host.reduce IntOp.andi x v reducesTo_S256x47_S_d0_1 h_S_) main_v21 main_c_7
  let main_v23 : IVec S_ 1 := andi main_v18 main_v22
  let main_v24 : FVec F S47 .f32 := Host.absf main_arg9
  let main_cst_8 : FVec F S_ .f32 := constant S_ .f32 0x7F800000#32
  let main_v25 : FVec F S47 .f32 := broadcastInDim S47 ![] bcast_S_S47 main_cst_8
  let main_v26 : IVec S47 1 := cmpf .olt main_v24 main_v25
  let main_c_9 : IVec S_ 1 := constantI S_ 1 1#1
  let main_v27 : IVec S_ 1 := (fun x v => Host.reduce IntOp.andi x v reducesTo_S47_S_d0 h_S_) main_v26 main_c_9
  let main_v28 : IVec S_ 1 := andi main_v23 main_v27
  let main_v29 : FVec F S256x47 .f32 := Host.absf main_arg10
  let main_cst_10 : FVec F S_ .f32 := constant S_ .f32 0x7F800000#32
  let main_v30 : FVec F S256x47 .f32 := broadcastInDim S256x47 ![] bcast_S_S256x47 main_cst_10
  let main_v31 : IVec S256x47 1 := cmpf .olt main_v29 main_v30
  let main_c_11 : IVec S_ 1 := constantI S_ 1 1#1
  let main_v32 : IVec S_ 1 := (fun x v => Host.reduce IntOp.andi x v reducesTo_S256x47_S_d0_1 h_S_) main_v31 main_c_11
  let main_v33 : IVec S_ 1 := andi main_v28 main_v32
  main_v33

def fn {F : FTy → Type} [FloatOps F] (main_arg0 : FVec F S991232x100 .f32) (main_arg1 : IVec S901120 32) (main_arg2 : IVec S901120 32) (main_arg3 : IVec S81920 32) (main_arg4 : IVec S81920 32) (main_arg5 : FVec F S100x256 .f32) (main_arg6 : FVec F S256 .f32) (main_arg7 : FVec F S100x256 .f32) (main_arg8 : FVec F S256x47 .f32) (main_arg9 : FVec F S47 .f32) (main_arg10 : FVec F S256x47 .f32) : IVec S_ 1 :=
  let main_v0 : FVec F S991232x100 .f32 := Host.absf main_arg0
  let main_cst : FVec F S_ .f32 := constant S_ .f32 0x7F800000#32
  let main_v1 : FVec F S991232x100 .f32 := broadcastInDim S991232x100 ![] bcast_S_S991232x100 main_cst
  let main_v2 : IVec S991232x100 1 := cmpf .olt main_v0 main_v1
  let main_c : IVec S_ 1 := constantI S_ 1 1#1
  let main_v3 : IVec S_ 1 := (fun x v => Host.reduce IntOp.andi x v reducesTo_S991232x100_S_d0_1 h_S_) main_v2 main_c
  let main_v4 : FVec F S100x256 .f32 := Host.absf main_arg5
  let main_cst_0 : FVec F S_ .f32 := constant S_ .f32 0x7F800000#32
  let main_v5 : FVec F S100x256 .f32 := broadcastInDim S100x256 ![] bcast_S_S100x256 main_cst_0
  let main_v6 : IVec S100x256 1 := cmpf .olt main_v4 main_v5
  let main_c_1 : IVec S_ 1 := constantI S_ 1 1#1
  let main_v7 : IVec S_ 1 := (fun x v => Host.reduce IntOp.andi x v reducesTo_S100x256_S_d0_1 h_S_) main_v6 main_c_1
  let main_v8 : IVec S_ 1 := andi main_v3 main_v7
  let main_v9 : FVec F S256 .f32 := Host.absf main_arg6
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S100x256 .f32 := Host.absf main_arg7
  let main_cst_4 : FVec F S_ .f32 := constant S_ .f32 0x7F800000#32
  let main_v15 : FVec F S100x256 .f32 := broadcastInDim S100x256 ![] bcast_S_S100x256 main_cst_4
  let main_v16 : IVec S100x256 1 := cmpf .olt main_v14 main_v15
  fn_part1 (F := F) main_arg8 main_arg9 main_arg10 main_v13 main_v16
-- ==== Kernel.lean ====
abbrev S991232x100 : Shape := ⟨2, ![991232, 100]⟩
abbrev S901120 : Shape := ⟨1, ![901120]⟩
abbrev S81920 : Shape := ⟨1, ![81920]⟩
abbrev S100x256 : Shape := ⟨2, ![100, 256]⟩
abbrev S256 : Shape := ⟨1, ![256]⟩
abbrev S256x47 : Shape := ⟨2, ![256, 47]⟩
abbrev S47 : Shape := ⟨1, ![47]⟩
abbrev S_ : Shape := ⟨0, ![]⟩
abbrev S901120x1 : Shape := ⟨2, ![901120, 1]⟩
abbrev S901120x100 : Shape := ⟨2, ![901120, 100]⟩
abbrev S90112x100 : Shape := ⟨2, ![90112, 100]⟩
abbrev S90112 : Shape := ⟨1, ![90112]⟩
abbrev S90112x1 : Shape := ⟨2, ![90112, 1]⟩
abbrev S90112x256 : Shape := ⟨2, ![90112, 256]⟩
abbrev S2048x100 : Shape := ⟨2, ![2048, 100]⟩
abbrev S2048x1 : Shape := ⟨2, ![2048, 1]⟩
abbrev S2048x256 : Shape := ⟨2, ![2048, 256]⟩
abbrev S1x256 : Shape := ⟨2, ![1, 256]⟩
abbrev S81920x1 : Shape := ⟨2, ![81920, 1]⟩
abbrev S81920x256 : Shape := ⟨2, ![81920, 256]⟩
abbrev S8192x256 : Shape := ⟨2, ![8192, 256]⟩
abbrev S8192 : Shape := ⟨1, ![8192]⟩
abbrev S8192x1 : Shape := ⟨2, ![8192, 1]⟩
abbrev S8192x47 : Shape := ⟨2, ![8192, 47]⟩
abbrev S1024x256 : Shape := ⟨2, ![1024, 256]⟩
abbrev S1024x1 : Shape := ⟨2, ![1024, 1]⟩
abbrev S1024x47 : Shape := ⟨2, ![1024, 47]⟩
abbrev S1x47 : Shape := ⟨2, ![1, 47]⟩
abbrev S1024 : Shape := ⟨1, ![1024]⟩

abbrev nBuf : Space → Nat
  | .hbm => 65
  | .vmem => 22
  | .smem => 0
  | _ => 0

abbrev bufTy : (tb : Table) → Fin (tcTables nBuf tb) → BufTy
  | .hbm, ⟨0, _⟩ => ⟨S991232x100, .f32⟩
  | .hbm, ⟨1, _⟩ => ⟨S901120, .i32⟩
  | .hbm, ⟨2, _⟩ => ⟨S901120, .i32⟩
  | .hbm, ⟨3, _⟩ => ⟨S81920, .i32⟩
  | .hbm, ⟨4, _⟩ => ⟨S81920, .i32⟩
  | .hbm, ⟨5, _⟩ => ⟨S100x256, .f32⟩
  | .hbm, ⟨6, _⟩ => ⟨S256, .f32⟩
  | .hbm, ⟨7, _⟩ => ⟨S100x256, .f32⟩
  | .hbm, ⟨8, _⟩ => ⟨S256x47, .f32⟩
  | .hbm, ⟨9, _⟩ => ⟨S47, .f32⟩
  | .hbm, ⟨10, _⟩ => ⟨S256x47, .f32⟩
  | .hbm, ⟨11, _⟩ => ⟨S_, .i32⟩
  | .hbm, ⟨12, _⟩ => ⟨S901120, .i32⟩
  | .hbm, ⟨13, _⟩ => ⟨S901120, .i1⟩
  | .hbm, ⟨14, _⟩ => ⟨S_, .i32⟩
  | .hbm, ⟨15, _⟩ => ⟨S901120, .i32⟩
  | .hbm, ⟨16, _⟩ => ⟨S901120, .i32⟩
  | .hbm, ⟨17, _⟩ => ⟨S901120, .i32⟩
  | .hbm, ⟨18, _⟩ => ⟨S901120x1, .i32⟩
  | .hbm, ⟨19, _⟩ => ⟨S901120x100, .f32⟩
  | .hbm, ⟨20, _⟩ => ⟨S_, .f32⟩
  | .hbm, ⟨21, _⟩ => ⟨S90112x100, .f32⟩
  | .hbm, ⟨22, _⟩ => ⟨S901120x1, .i32⟩
  | .hbm, ⟨23, _⟩ => ⟨S90112x100, .f32⟩
  | .hbm, ⟨24, _⟩ => ⟨S_, .f32⟩
  | .hbm, ⟨25, _⟩ => ⟨S901120, .f32⟩
  | .hbm, ⟨26, _⟩ => ⟨S_, .f32⟩
  | .hbm, ⟨27, _⟩ => ⟨S90112, .f32⟩
  | .hbm, ⟨28, _⟩ => ⟨S901120x1, .i32⟩
  | .hbm, ⟨29, _⟩ => ⟨S90112, .f32⟩
  | .hbm, ⟨30, _⟩ => ⟨S_, .f32⟩
  | .hbm, ⟨31, _⟩ => ⟨S90112, .f32⟩
  | .hbm, ⟨32, _⟩ => ⟨S90112, .f32⟩
  | .hbm, ⟨33, _⟩ => ⟨S_, .f32⟩
  | .hbm, ⟨34, _⟩ => ⟨S90112, .f32⟩
  | .hbm, ⟨35, _⟩ => ⟨S90112, .f32⟩
  | .hbm, ⟨36, _⟩ => ⟨S90112x1, .f32⟩
  | .hbm, ⟨37, _⟩ => ⟨S90112x256, .f32⟩
  | .hbm, ⟨38, _⟩ => ⟨S_, .i32⟩
  | .hbm, ⟨39, _⟩ => ⟨S81920, .i32⟩
  | .hbm, ⟨40, _⟩ => ⟨S81920, .i1⟩
  | .hbm, ⟨41, _⟩ => ⟨S_, .i32⟩
  | .hbm, ⟨42, _⟩ => ⟨S81920, .i32⟩
  | .hbm, ⟨43, _⟩ => ⟨S81920, .i32⟩
  | .hbm, ⟨44, _⟩ => ⟨S81920, .i32⟩
  | .hbm, ⟨45, _⟩ => ⟨S81920x1, .i32⟩
  | .hbm, ⟨46, _⟩ => ⟨S81920x256, .f32⟩
  | .hbm, ⟨47, _⟩ => ⟨S_, .f32⟩
  | .hbm, ⟨48, _⟩ => ⟨S8192x256, .f32⟩
  | .hbm, ⟨49, _⟩ => ⟨S81920x1, .i32⟩
  | .hbm, ⟨50, _⟩ => ⟨S8192x256, .f32⟩
  | .hbm, ⟨51, _⟩ => ⟨S_, .f32⟩
  | .hbm, ⟨52, _⟩ => ⟨S81920, .f32⟩
  | .hbm, ⟨53, _⟩ => ⟨S_, .f32⟩
  | .hbm, ⟨54, _⟩ => ⟨S8192, .f32⟩
  | .hbm, ⟨55, _⟩ => ⟨S81920x1, .i32⟩
  | .hbm, ⟨56, _⟩ => ⟨S8192, .f32⟩
  | .hbm, ⟨57, _⟩ => ⟨S_, .f32⟩
  | .hbm, ⟨58, _⟩ => ⟨S8192, .f32⟩
  | .hbm, ⟨59, _⟩ => ⟨S8192, .f32⟩
  | .hbm, ⟨60, _⟩ => ⟨S_, .f32⟩
  | .hbm, ⟨61, _⟩ => ⟨S8192, .f32⟩
  | .hbm, ⟨62, _⟩ => ⟨S8192, .f32⟩
  | .hbm, ⟨63, _⟩ => ⟨S8192x1, .f32⟩
  | .hbm, ⟨64, _⟩ => ⟨S8192x47, .f32⟩
  | .local _ .vmem, ⟨0, _⟩ => ⟨S2048x100, .f32⟩
  | .local _ .vmem, ⟨1, _⟩ => ⟨S2048x100, .f32⟩
  | .local _ .vmem, ⟨2, _⟩ => ⟨S2048x1, .f32⟩
  | .local _ .vmem, ⟨3, _⟩ => ⟨S2048x1, .f32⟩
  | .local _ .vmem, ⟨4, _⟩ => ⟨S2048x100, .f32⟩
  | .local _ .vmem, ⟨5, _⟩ => ⟨S2048x100, .f32⟩
  | .local _ .vmem, ⟨6, _⟩ => ⟨S100x256, .f32⟩
  | .local _ .vmem, ⟨7, _⟩ => ⟨S256, .f32⟩
  | .local _ .vmem, ⟨8, _⟩ => ⟨S100x256, .f32⟩
  | .local _ .vmem, ⟨9, _⟩ => ⟨S2048x256, .f32⟩
  | .local _ .vmem, ⟨10, _⟩ => ⟨S2048x256, .f32⟩
  | .local _ .vmem, ⟨11, _⟩ => ⟨S1024x256, .f32⟩
  | .local _ .vmem, ⟨12, _⟩ => ⟨S1024x256, .f32⟩
  | .local _ .vmem, ⟨13, _⟩ => ⟨S1024x1, .f32⟩
  | .local _ .vmem, ⟨14, _⟩ => ⟨S1024x1, .f32⟩
  | .local _ .vmem, ⟨15, _⟩ => ⟨S1024x256, .f32⟩
  | .local _ .vmem, ⟨16, _⟩ => ⟨S1024x256, .f32⟩
  | .local _ .vmem, ⟨17, _⟩ => ⟨S256x47, .f32⟩
  | .local _ .vmem, ⟨18, _⟩ => ⟨S47, .f32⟩
  | .local _ .vmem, ⟨19, _⟩ => ⟨S256x47, .f32⟩
  | .local _ .vmem, ⟨20, _⟩ => ⟨S1024x47, .f32⟩
  | .local _ .vmem, ⟨21, _⟩ => ⟨S1024x47, .f32⟩
  | _, _ => ⟨S991232x100, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_v0 : Ref sig .tc := ⟨.hbm, 12, rfl⟩
abbrev main_v1 : Ref sig .tc := ⟨.hbm, 13, rfl⟩
abbrev main_c_0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_cst_1 : Ref sig .tc := ⟨.hbm, 24, rfl⟩
abbrev main_v10 : Ref sig .tc := ⟨.hbm, 25, rfl⟩
abbrev main_cst_2 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_3 : Ref sig .tc := ⟨.hbm, 30, rfl⟩
abbrev main_v14 : Ref sig .tc := ⟨.hbm, 31, rfl⟩
abbrev main_v15 : Ref sig .tc := ⟨.hbm, 32, rfl⟩
abbrev main_cst_4 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_c_5 : Ref sig .tc := ⟨.hbm, 38, rfl⟩
abbrev main_v20 : Ref sig .tc := ⟨.hbm, 39, rfl⟩
abbrev main_v21 : Ref sig .tc := ⟨.hbm, 40, rfl⟩
abbrev main_c_6 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_cst_7 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_cst_8 : Ref sig .tc := ⟨.hbm, 51, rfl⟩
abbrev main_v30 : Ref sig .tc := ⟨.hbm, 52, rfl⟩
abbrev main_cst_9 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_cst_10 : Ref sig .tc := ⟨.hbm, 57, rfl⟩
abbrev main_v34 : Ref sig .tc := ⟨.hbm, 58, rfl⟩
abbrev main_v35 : Ref sig .tc := ⟨.hbm, 59, rfl⟩
abbrev main_cst_11 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21

abbrev nD : Nat := 1
abbrev τ : Topo := Topo.v7x

variable {F : FTy → Type} [FloatOps F]

abbrev grid0 : Pipeline.Grid := ⟨1, ![44], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x100 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x100 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S100x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S100x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2048x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1024x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1024x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S256x47 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S47 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S256x47 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S1024x47 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  bcast_S_S901120 : S_.BroadcastsInDim S901120 (![] : Fin 0 → Fin S901120.rank)
  bcast_S901120_S901120x1_0 : S901120.BroadcastsInDim S901120x1 (![0] : Fin 1 → Fin S901120x1.rank)
  bcast_S_S90112x100 : S_.BroadcastsInDim S90112x100 (![] : Fin 0 → Fin S90112x100.rank)
  bcast_S_S90112 : S_.BroadcastsInDim S90112 (![] : Fin 0 → Fin S90112.rank)
  bcast_S90112_S90112x1_0 : S90112.BroadcastsInDim S90112x1 (![0] : Fin 1 → Fin S90112x1.rank)
  inb_S2048x100_S2048x100_0_0 : ∀ a, (![0, 0] : Fin 2 → Nat) a + S2048x100.size a ≤ S2048x100.size a
  h_S2048x100 : 0 < S2048x100.numel
  shapeCasts_S2048x100_S2048x100 : S2048x100.ShapeCasts S2048x100
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  broadcasts_S2048x1_S2048x100 : S2048x1.Broadcasts S2048x100
  bitsLt_bf16_f32 : FTy.bits .bf16 < FTy.bits .f32
  inb_S100x256_S100x256_0_0 : ∀ a, (![0, 0] : Fin 2 → Nat) a + S100x256.size a ≤ S100x256.size a
  h_S100x256 : 0 < S100x256.numel
  inb_S256_S256_0 : ∀ a, (![0] : Fin 1 → Nat) a + S256.size a ≤ S256.size a
  h_S256 : 0 < S256.numel
  shapeCasts_S256_S1x256 : S256.ShapeCasts S1x256
  broadcasts_S1x256_S2048x256 : S1x256.Broadcasts S2048x256
  inb_S2048x256_S2048x256_0_0 : ∀ a, (![0, 0] : Fin 2 → Nat) a + S2048x256.size a ≤ S2048x256.size a
  h_S2048x256 : 0 < S2048x256.numel
  bcast_S_S81920 : S_.BroadcastsInDim S81920 (![] : Fin 0 → Fin S81920.rank)
  bcast_S81920_S81920x1_0 : S81920.BroadcastsInDim S81920x1 (![0] : Fin 1 → Fin S81920x1.rank)
  bcast_S_S8192x256 : S_.BroadcastsInDim S8192x256 (![] : Fin 0 → Fin S8192x256.rank)
  bcast_S_S8192 : S_.BroadcastsInDim S8192 (![] : Fin 0 → Fin S8192.rank)
  bcast_S8192_S8192x1_0 : S8192.BroadcastsInDim S8192x1 (![0] : Fin 1 → Fin S8192x1.rank)
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  broadcasts_S1024x1_S1024x256 : S1024x1.Broadcasts S1024x256
  inb_S256x47_S256x47_0_0 : ∀ a, (![0, 0] : Fin 2 → Nat) a + S256x47.size a ≤ S256x47.size a
  h_S256x47 : 0 < S256x47.numel
  inb_S47_S47_0 : ∀ a, (![0] : Fin 1 → Nat) a + S47.size a ≤ S47.size a
  h_S47 : 0 < S47.numel
  shapeCasts_S47_S1x47 : S47.ShapeCasts S1x47
  broadcasts_S1x47_S1024x47 : S1x47.Broadcasts S1024x47
  reduces_S1024x47_S1024 : S1024x47.Reduces [1] S1024
  shapeCasts_S1024_S1024x1 : S1024.ShapeCasts S1024x1
  broadcasts_S1024x1_S1024x47 : S1024x1.Broadcasts S1024x47
  inb_S1024x47_S1024x47_0_0 : ∀ a, (![0, 0] : Fin 2 → Nat) a + S1024x47.size a ≤ S1024x47.size a
  h_S1024x47 : 0 < S1024x47.numel
  gather_S991232x100_S901120x1_S901120x100_1_0_n_n_0_1_1100_wf : GatherDims.WF S991232x100 S901120x1 S901120x100 [1] [0] [] [0] [] 1 ![1, 100]
  scatter_S90112x100_S901120x1_S901120x100_1_0_0_1_wf : ScatterDims.WF S90112x100 S901120x1 S901120x100 [1] [0] [0] 1
  scatter_S90112_S901120x1_S901120_n_0_0_1_wf : ScatterDims.WF S90112 S901120x1 S901120 [] [0] [0] 1
  dot_S2048x100_S100x256_S2048x256_1_0_0_1_n_n_wf : DotDims.WF S2048x100 S100x256 S2048x256 [1] [0] [0] [1] [] []
  gather_S90112x256_S81920x1_S81920x256_1_0_n_n_0_1_1256_wf : GatherDims.WF S90112x256 S81920x1 S81920x256 [1] [0] [] [0] [] 1 ![1, 256]
  scatter_S8192x256_S81920x1_S81920x256_1_0_0_1_wf : ScatterDims.WF S8192x256 S81920x1 S81920x256 [1] [0] [0] 1
  scatter_S8192_S81920x1_S81920_n_0_0_1_wf : ScatterDims.WF S8192 S81920x1 S81920 [] [0] [0] 1
  dot_S1024x256_S256x47_S1024x47_1_0_0_1_n_n_wf : DotDims.WF S1024x256 S256x47 S1024x47 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x100.size a ≤ S90112x100.size a
  hwx0_0 : ∀ i : grid0.Coords, EltTy.bits .f32 = 32 ∨ (Rect.block (s := S90112x100) S2048x100.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x1.size a ≤ S90112x1.size a
  hwx0_1 : ∀ i : grid0.Coords, EltTy.bits .f32 = 32 ∨ (Rect.block (s := S90112x1) S2048x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x100.size a ≤ S991232x100.size a
  hwx0_2 : ∀ i : grid0.Coords, EltTy.bits .f32 = 32 ∨ (Rect.block (s := S991232x100) S2048x100.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S100x256.size a ≤ S100x256.size a
  hwx0_3 : ∀ i : grid0.Coords, EltTy.bits .f32 = 32 ∨ (Rect.block (s := S100x256) S100x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256.size a ≤ S256.size a
  hwx0_4 : ∀ i : grid0.Coords, EltTy.bits .f32 = 32 ∨ (Rect.block (s := S256) S256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S100x256.size a ≤ S100x256.size a
  hwx0_5 : ∀ i : grid0.Coords, EltTy.bits .f32 = 32 ∨ (Rect.block (s := S100x256) S100x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2048x256.size a ≤ S90112x256.size a
  hwx0_6 : ∀ i : grid0.Coords, EltTy.bits .f32 = 32 ∨ (Rect.block (s := S90112x256) S2048x256.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x256.size a ≤ S8192x256.size a
  hwx1_0 : ∀ i : grid1.Coords, EltTy.bits .f32 = 32 ∨ (Rect.block (s := S8192x256) S1024x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x1.size a ≤ S8192x1.size a
  hwx1_1 : ∀ i : grid1.Coords, EltTy.bits .f32 = 32 ∨ (Rect.block (s := S8192x1) S1024x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x256.size a ≤ S90112x256.size a
  hwx1_2 : ∀ i : grid1.Coords, EltTy.bits .f32 = 32 ∨ (Rect.block (s := S90112x256) S1024x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x47.size a ≤ S256x47.size a
  hwx1_3 : ∀ i : grid1.Coords, EltTy.bits .f32 = 32 ∨ (Rect.block (s := S256x47) S256x47.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S47.size a ≤ S47.size a
  hwx1_4 : ∀ i : grid1.Coords, EltTy.bits .f32 = 32 ∨ (Rect.block (s := S47) S47.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S256x47.size a ≤ S256x47.size a
  hwx1_5 : ∀ i : grid1.Coords, EltTy.bits .f32 = 32 ∨ (Rect.block (s := S256x47) S256x47.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1024x47.size a ≤ S8192x47.size a
  hwx1_6 : ∀ i : grid1.Coords, EltTy.bits .f32 = 32 ∨ (Rect.block (s := S8192x47) S1024x47.size (cc1_transform_6 i) (hinb1_6 i)).WholeWords (EltTy.packing .f32)

variable [Facts₀]

def gather_S991232x100_S901120x1_S901120x100_1_0_n_n_0_1_1100 : GatherDims S991232x100 S901120x1 S901120x100 where
  offsetDims := [1]
  collapsedSliceDims := [0]
  operandBatchingDims := []
  startIndicesBatchingDims := []
  startIndexMap := [0]
  indexVectorDim := 1
  sliceSizes := ![1, 100]
  wf := gather_S991232x100_S901120x1_S901120x100_1_0_n_n_0_1_1100_wf
def scatter_S90112x100_S901120x1_S901120x100_1_0_0_1 : ScatterDims S90112x100 S901120x1 S901120x100 where
  updateWindowDims := [1]
  insertedWindowDims := [0]
  scatterDimsToOperandDims := [0]
  indexVectorDim := 1
  wf := scatter_S90112x100_S901120x1_S901120x100_1_0_0_1_wf
def scatter_S90112_S901120x1_S901120_n_0_0_1 : ScatterDims S90112 S901120x1 S901120 where
  updateWindowDims := []
  insertedWindowDims := [0]
  scatterDimsToOperandDims := [0]
  indexVectorDim := 1
  wf := scatter_S90112_S901120x1_S901120_n_0_0_1_wf
def dot_S2048x100_S100x256_S2048x256_1_0_0_1_n_n : DotDims S2048x100 S100x256 S2048x256 where
  lhsContracting := [1]
  rhsContracting := [0]
  lhsNonContracting := [0]
  rhsNonContracting := [1]
  lhsBatch := []
  rhsBatch := []
  wf := dot_S2048x100_S100x256_S2048x256_1_0_0_1_n_n_wf
def gather_S90112x256_S81920x1_S81920x256_1_0_n_n_0_1_1256 : GatherDims S90112x256 S81920x1 S81920x256 where
  offsetDims := [1]
  collapsedSliceDims := [0]
  operandBatchingDims := []
  startIndicesBatchingDims := []
  startIndexMap := [0]
  indexVectorDim := 1
  sliceSizes := ![1, 256]
  wf := gather_S90112x256_S81920x1_S81920x256_1_0_n_n_0_1_1256_wf
def scatter_S8192x256_S81920x1_S81920x256_1_0_0_1 : ScatterDims S8192x256 S81920x1 S81920x256 where
  updateWindowDims := [1]
  insertedWindowDims := [0]
  scatterDimsToOperandDims := [0]
  indexVectorDim := 1
  wf := scatter_S8192x256_S81920x1_S81920x256_1_0_0_1_wf
def scatter_S8192_S81920x1_S81920_n_0_0_1 : ScatterDims S8192 S81920x1 S81920 where
  updateWindowDims := []
  insertedWindowDims := [0]
  scatterDimsToOperandDims := [0]
  indexVectorDim := 1
  wf := scatter_S8192_S81920x1_S81920_n_0_0_1_wf
def dot_S1024x256_S256x47_S1024x47_1_0_0_1_n_n : DotDims S1024x256 S256x47 S1024x47 where
  lhsContracting := [1]
  rhsContracting := [0]
  lhsNonContracting := [0]
  rhsNonContracting := [1]
  lhsBatch := []
  rhsBatch := []
  wf := dot_S1024x256_S256x47_S1024x47_1_0_0_1_n_n_wf

abbrev win0_0 : Pipeline.Window sig grid0 :=
  Pipeline.Window.ofSpec (Memref.whole main_v9) S2048x100.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S2048x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S2048x100.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S100x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg7) S100x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v19) S2048x256.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v29) S1024x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v38) S1024x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v19) S1024x256.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg8) S256x47.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg9) S47.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg10) S256x47.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v39) S1024x47.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S991232x100 : Shape := ⟨2, ![991232, 100]⟩
abbrev S901120 : Shape := ⟨1, ![901120]⟩
abbrev S81920 : Shape := ⟨1, ![81920]⟩
abbrev S100x256 : Shape := ⟨2, ![100, 256]⟩
abbrev S256 : Shape := ⟨1, ![256]⟩
abbrev S256x47 : Shape := ⟨2, ![256, 47]⟩
abbrev S47 : Shape := ⟨1, ![47]⟩
abbrev S90112x100 : Shape := ⟨2, ![90112, 100]⟩
abbrev S_ : Shape := ⟨0, ![]⟩
abbrev S901120x1 : Shape := ⟨2, ![901120, 1]⟩
abbrev S901120x100 : Shape := ⟨2, ![901120, 100]⟩
abbrev S90112 : Shape := ⟨1, ![90112]⟩
abbrev S90112x1 : Shape := ⟨2, ![90112, 1]⟩
abbrev S90112x256 : Shape := ⟨2, ![90112, 256]⟩
abbrev S1x256 : Shape := ⟨2, ![1, 256]⟩
abbrev S8192x256 : Shape := ⟨2, ![8192, 256]⟩
abbrev S81920x1 : Shape := ⟨2, ![81920, 1]⟩
abbrev S81920x256 : Shape := ⟨2, ![81920, 256]⟩
abbrev S8192 : Shape := ⟨1, ![8192]⟩
abbrev S8192x1 : Shape := ⟨2, ![8192, 1]⟩
abbrev S8192x47 : Shape := ⟨2, ![8192, 47]⟩
abbrev S1x47 : Shape := ⟨2, ![1, 47]⟩

abbrev nBuf : Space → Nat
  | .hbm => 93
  | .vmem => 0
  | .smem => 0
  | _ => 0

abbrev bufTy : (tb : Table) → Fin (tcTables nBuf tb) → BufTy
  | .hbm, ⟨0, _⟩ => ⟨S991232x100, .f32⟩
  | .hbm, ⟨1, _⟩ => ⟨S901120, .i32⟩
  | .hbm, ⟨2, _⟩ => ⟨S901120, .i32⟩
  | .hbm, ⟨3, _⟩ => ⟨S81920, .i32⟩
  | .hbm, ⟨4, _⟩ => ⟨S81920, .i32⟩
  | .hbm, ⟨5, _⟩ => ⟨S100x256, .f32⟩
  | .hbm, ⟨6, _⟩ => ⟨S256, .f32⟩
  | .hbm, ⟨7, _⟩ => ⟨S100x256, .f32⟩
  | .hbm, ⟨8, _⟩ => ⟨S256x47, .f32⟩
  | .hbm, ⟨9, _⟩ => ⟨S47, .f32⟩
  | .hbm, ⟨10, _⟩ => ⟨S256x47, .f32⟩
  | .hbm, ⟨11, _⟩ => ⟨S90112x100, .f32⟩
  | .hbm, ⟨12, _⟩ => ⟨S_, .i32⟩
  | .hbm, ⟨13, _⟩ => ⟨S901120, .i32⟩
  | .hbm, ⟨14, _⟩ => ⟨S901120, .i1⟩
  | .hbm, ⟨15, _⟩ => ⟨S_, .i32⟩
  | .hbm, ⟨16, _⟩ => ⟨S901120, .i32⟩
  | .hbm, ⟨17, _⟩ => ⟨S901120, .i32⟩
  | .hbm, ⟨18, _⟩ => ⟨S901120, .i32⟩
  | .hbm, ⟨19, _⟩ => ⟨S901120x1, .i32⟩
  | .hbm, ⟨20, _⟩ => ⟨S901120x100, .f32⟩
  | .hbm, ⟨21, _⟩ => ⟨S_, .f32⟩
  | .hbm, ⟨22, _⟩ => ⟨S90112x100, .f32⟩
  | .hbm, ⟨23, _⟩ => ⟨S901120x1, .i32⟩
  | .hbm, ⟨24, _⟩ => ⟨S90112x100, .f32⟩
  | .hbm, ⟨25, _⟩ => ⟨S_, .f32⟩
  | .hbm, ⟨26, _⟩ => ⟨S901120, .f32⟩
  | .hbm, ⟨27, _⟩ => ⟨S_, .f32⟩
  | .hbm, ⟨28, _⟩ => ⟨S90112, .f32⟩
  | .hbm, ⟨29, _⟩ => ⟨S901120x1, .i32⟩
  | .hbm, ⟨30, _⟩ => ⟨S90112, .f32⟩
  | .hbm, ⟨31, _⟩ => ⟨S_, .f32⟩
  | .hbm, ⟨32, _⟩ => ⟨S90112, .f32⟩
  | .hbm, ⟨33, _⟩ => ⟨S90112, .f32⟩
  | .hbm, ⟨34, _⟩ => ⟨S90112x1, .f32⟩
  | .hbm, ⟨35, _⟩ => ⟨S90112x100, .f32⟩
  | .hbm, ⟨36, _⟩ => ⟨S90112x100, .f32⟩
  | .hbm, ⟨37, _⟩ => ⟨S90112x256, .f32⟩
  | .hbm, ⟨38, _⟩ => ⟨S1x256, .f32⟩
  | .hbm, ⟨39, _⟩ => ⟨S90112x256, .f32⟩
  | .hbm, ⟨40, _⟩ => ⟨S90112x256, .f32⟩
  | .hbm, ⟨41, _⟩ => ⟨S90112x256, .f32⟩
  | .hbm, ⟨42, _⟩ => ⟨S90112x256, .f32⟩
  | .hbm, ⟨43, _⟩ => ⟨S_, .f32⟩
  | .hbm, ⟨44, _⟩ => ⟨S90112x256, .f32⟩
  | .hbm, ⟨45, _⟩ => ⟨S90112x256, .f32⟩
  | .hbm, ⟨46, _⟩ => ⟨S8192x256, .f32⟩
  | .hbm, ⟨47, _⟩ => ⟨S_, .i32⟩
  | .hbm, ⟨48, _⟩ => ⟨S81920, .i32⟩
  | .hbm, ⟨49, _⟩ => ⟨S81920, .i1⟩
  | .hbm, ⟨50, _⟩ => ⟨S_, .i32⟩
  | .hbm, ⟨51, _⟩ => ⟨S81920, .i32⟩
  | .hbm, ⟨52, _⟩ => ⟨S81920, .i32⟩
  | .hbm, ⟨53, _⟩ => ⟨S81920, .i32⟩
  | .hbm, ⟨54, _⟩ => ⟨S81920x1, .i32⟩
  | .hbm, ⟨55, _⟩ => ⟨S81920x256, .f32⟩
  | .hbm, ⟨56, _⟩ => ⟨S_, .f32⟩
  | .hbm, ⟨57, _⟩ => ⟨S8192x256, .f32⟩
  | .hbm, ⟨58, _⟩ => ⟨S81920x1, .i32⟩
  | .hbm, ⟨59, _⟩ => ⟨S8192x256, .f32⟩
  | .hbm, ⟨60, _⟩ => ⟨S_, .f32⟩
  | .hbm, ⟨61, _⟩ => ⟨S81920, .f32⟩
  | .hbm, ⟨62, _⟩ => ⟨S_, .f32⟩
  | .hbm, ⟨63, _⟩ => ⟨S8192, .f32⟩
  | .hbm, ⟨64, _⟩ => ⟨S81920x1, .i32⟩
  | .hbm, ⟨65, _⟩ => ⟨S8192, .f32⟩
  | .hbm, ⟨66, _⟩ => ⟨S_, .f32⟩
  | .hbm, ⟨67, _⟩ => ⟨S8192, .f32⟩
  | .hbm, ⟨68, _⟩ => ⟨S8192, .f32⟩
  | .hbm, ⟨69, _⟩ => ⟨S8192x1, .f32⟩
  | .hbm, ⟨70, _⟩ => ⟨S8192x256, .f32⟩
  | .hbm, ⟨71, _⟩ => ⟨S8192x256, .f32⟩
  | .hbm, ⟨72, _⟩ => ⟨S8192x47, .f32⟩
  | .hbm, ⟨73, _⟩ => ⟨S1x47, .f32⟩
  | .hbm, ⟨74, _⟩ => ⟨S8192x47, .f32⟩
  | .hbm, ⟨75, _⟩ => ⟨S8192x47, .f32⟩
  | .hbm, ⟨76, _⟩ => ⟨S8192x47, .f32⟩
  | .hbm, ⟨77, _⟩ => ⟨S8192x47, .f32⟩
  | .hbm, ⟨78, _⟩ => ⟨S_, .f32⟩
  | .hbm, ⟨79, _⟩ => ⟨S8192, .f32⟩
  | .hbm, ⟨80, _⟩ => ⟨S_, .f32⟩
  | .hbm, ⟨81, _⟩ => ⟨S8192, .f32⟩
  | .hbm, ⟨82, _⟩ => ⟨S8192, .f32⟩
  | .hbm, ⟨83, _⟩ => ⟨S8192x1, .f32⟩
  | .hbm, ⟨84, _⟩ => ⟨S8192x47, .f32⟩
  | .hbm, ⟨85, _⟩ => ⟨S8192x47, .f32⟩
  | .hbm, ⟨86, _⟩ => ⟨S8192x47, .f32⟩
  | .hbm, ⟨87, _⟩ => ⟨S_, .f32⟩
  | .hbm, ⟨88, _⟩ => ⟨S8192, .f32⟩
  | .hbm, ⟨89, _⟩ => ⟨S8192x1, .f32⟩
  | .hbm, ⟨90, _⟩ => ⟨S8192x1, .f32⟩
  | .hbm, ⟨91, _⟩ => ⟨S8192x47, .f32⟩
  | .hbm, ⟨92, _⟩ => ⟨S8192x47, .f32⟩
  | _, _ => ⟨S991232x100, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_c : Ref sig .tc := ⟨.hbm, 12, rfl⟩
abbrev main_v1 : Ref sig .tc := ⟨.hbm, 13, rfl⟩
abbrev main_v2 : Ref sig .tc := ⟨.hbm, 14, rfl⟩
abbrev main_c_0 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_1 : Ref sig .tc := ⟨.hbm, 25, rfl⟩
abbrev main_v11 : Ref sig .tc := ⟨.hbm, 26, rfl⟩
abbrev main_cst_2 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_cst_3 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_call0_cst : Ref sig .tc := ⟨.hbm, 43, rfl⟩
abbrev main_call0_v0 : Ref sig .tc := ⟨.hbm, 44, rfl⟩
abbrev main_v26 : Ref sig .tc := ⟨.hbm, 45, rfl⟩
abbrev main_v27 : Ref sig .tc := ⟨.hbm, 46, rfl⟩
abbrev main_c_4 : Ref sig .tc := ⟨.hbm, 47, rfl⟩
abbrev main_v28 : Ref sig .tc := ⟨.hbm, 48, rfl⟩
abbrev main_v29 : Ref sig .tc := ⟨.hbm, 49, rfl⟩
abbrev main_c_5 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_cst_6 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_cst_7 : Ref sig .tc := ⟨.hbm, 60, rfl⟩
abbrev main_v38 : Ref sig .tc := ⟨.hbm, 61, rfl⟩
abbrev main_cst_8 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_cst_9 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_call1_cst : Ref sig .tc := ⟨.hbm, 78, rfl⟩
abbrev main_call1_v0 : Ref sig .tc := ⟨.hbm, 79, rfl⟩
abbrev main_call1_cst_0 : Ref sig .tc := ⟨.hbm, 80, rfl⟩
abbrev main_call1_v1 : Ref sig .tc := ⟨.hbm, 81, rfl⟩
abbrev main_call1_v2 : Ref sig .tc := ⟨.hbm, 82, rfl⟩
abbrev main_call1_v3 : Ref sig .tc := ⟨.hbm, 83, rfl⟩
abbrev main_call1_v4 : Ref sig .tc := ⟨.hbm, 84, rfl⟩
abbrev main_call1_v5 : Ref sig .tc := ⟨.hbm, 85, rfl⟩
abbrev main_call1_v6 : Ref sig .tc := ⟨.hbm, 86, rfl⟩
abbrev main_call1_cst_1 : Ref sig .tc := ⟨.hbm, 87, rfl⟩
abbrev main_call1_v7 : Ref sig .tc := ⟨.hbm, 88, rfl⟩
abbrev main_call1_v8 : Ref sig .tc := ⟨.hbm, 89, rfl⟩
abbrev main_call1_v9 : Ref sig .tc := ⟨.hbm, 90, rfl⟩
abbrev main_call1_v10 : Ref sig .tc := ⟨.hbm, 91, rfl⟩
abbrev main_v53 : Ref sig .tc := ⟨.hbm, 92, rfl⟩

abbrev nD : Nat := 1
abbrev τ : Topo := Topo.v7x

variable {F : FTy → Type} [FloatOps F]

class Facts₀ : Prop where
  slices_S991232x100_S90112x100_0_0 : S991232x100.Slices ![0, 0] S90112x100
  bcast_S_S901120 : S_.BroadcastsInDim S901120 (![] : Fin 0 → Fin S901120.rank)
  bcast_S901120_S901120x1_0 : S901120.BroadcastsInDim S901120x1 (![0] : Fin 1 → Fin S901120x1.rank)
  bcast_S_S90112x100 : S_.BroadcastsInDim S90112x100 (![] : Fin 0 → Fin S90112x100.rank)
  bcast_S_S90112 : S_.BroadcastsInDim S90112 (![] : Fin 0 → Fin S90112.rank)
  bcast_S90112_S90112x1_0 : S90112.BroadcastsInDim S90112x1 (![0] : Fin 1 → Fin S90112x1.rank)
  bcast_S90112x1_S90112x100_0_1 : S90112x1.BroadcastsInDim S90112x100 (![0, 1] : Fin 2 → Fin S90112x100.rank)
  bcast_S256_S1x256_1 : S256.BroadcastsInDim S1x256 (![1] : Fin 1 → Fin S1x256.rank)
  bcast_S1x256_S90112x256_0_1 : S1x256.BroadcastsInDim S90112x256 (![0, 1] : Fin 2 → Fin S90112x256.rank)
  bcast_S_S90112x256 : S_.BroadcastsInDim S90112x256 (![] : Fin 0 → Fin S90112x256.rank)
  slices_S90112x256_S8192x256_0_0 : S90112x256.Slices ![0, 0] S8192x256
  bcast_S_S81920 : S_.BroadcastsInDim S81920 (![] : Fin 0 → Fin S81920.rank)
  bcast_S81920_S81920x1_0 : S81920.BroadcastsInDim S81920x1 (![0] : Fin 1 → Fin S81920x1.rank)
  bcast_S_S8192x256 : S_.BroadcastsInDim S8192x256 (![] : Fin 0 → Fin S8192x256.rank)
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x256_0_1 : S8192x1.BroadcastsInDim S8192x256 (![0, 1] : Fin 2 → Fin S8192x256.rank)
  bcast_S47_S1x47_1 : S47.BroadcastsInDim S1x47 (![1] : Fin 1 → Fin S1x47.rank)
  bcast_S1x47_S8192x47_0_1 : S1x47.BroadcastsInDim S8192x47 (![0, 1] : Fin 2 → Fin S8192x47.rank)
  reducesTo_S8192x47_S8192_d1 : S8192x47.ReducesTo [1] S8192
  h_S_ : 0 < S_.numel
  bcast_S8192x1_S8192x47_0_1 : S8192x1.BroadcastsInDim S8192x47 (![0, 1] : Fin 2 → Fin S8192x47.rank)
  gather_S991232x100_S901120x1_S901120x100_1_0_n_n_0_1_1100_wf : GatherDims.WF S991232x100 S901120x1 S901120x100 [1] [0] [] [0] [] 1 ![1, 100]
  scatter_S90112x100_S901120x1_S901120x100_1_0_0_1_wf : ScatterDims.WF S90112x100 S901120x1 S901120x100 [1] [0] [0] 1
  scatter_S90112_S901120x1_S901120_n_0_0_1_wf : ScatterDims.WF S90112 S901120x1 S901120 [] [0] [0] 1
  dot_S90112x100_S100x256_S90112x256_1_0_0_1_n_n_wf : DotDims.WF S90112x100 S100x256 S90112x256 [1] [0] [0] [1] [] []
  gather_S90112x256_S81920x1_S81920x256_1_0_n_n_0_1_1256_wf : GatherDims.WF S90112x256 S81920x1 S81920x256 [1] [0] [] [0] [] 1 ![1, 256]
  scatter_S8192x256_S81920x1_S81920x256_1_0_0_1_wf : ScatterDims.WF S8192x256 S81920x1 S81920x256 [1] [0] [0] 1
  scatter_S8192_S81920x1_S81920_n_0_0_1_wf : ScatterDims.WF S8192 S81920x1 S81920 [] [0] [0] 1
  dot_S8192x256_S256x47_S8192x47_1_0_0_1_n_n_wf : DotDims.WF S8192x256 S256x47 S8192x47 [1] [0] [0] [1] [] []

variable [Facts₀]

def gather_S991232x100_S901120x1_S901120x100_1_0_n_n_0_1_1100 : GatherDims S991232x100 S901120x1 S901120x100 where
  offsetDims := [1]
  collapsedSliceDims := [0]
  operandBatchingDims := []
  startIndicesBatchingDims := []
  startIndexMap := [0]
  indexVectorDim := 1
  sliceSizes := ![1, 100]
  wf := gather_S991232x100_S901120x1_S901120x100_1_0_n_n_0_1_1100_wf
def scatter_S90112x100_S901120x1_S901120x100_1_0_0_1 : ScatterDims S90112x100 S901120x1 S901120x100 where
  updateWindowDims := [1]
  insertedWindowDims := [0]
  scatterDimsToOperandDims := [0]
  indexVectorDim := 1
  wf := scatter_S90112x100_S901120x1_S901120x100_1_0_0_1_wf
def scatter_S90112_S901120x1_S901120_n_0_0_1 : ScatterDims S90112 S901120x1 S901120 where
  updateWindowDims := []
  insertedWindowDims := [0]
  scatterDimsToOperandDims := [0]
  indexVectorDim := 1
  wf := scatter_S90112_S901120x1_S901120_n_0_0_1_wf
def dot_S90112x100_S100x256_S90112x256_1_0_0_1_n_n : DotDims S90112x100 S100x256 S90112x256 where
  lhsContracting := [1]
  rhsContracting := [0]
  lhsNonContracting := [0]
  rhsNonContracting := [1]
  lhsBatch := []
  rhsBatch := []
  wf := dot_S90112x100_S100x256_S90112x256_1_0_0_1_n_n_wf
def gather_S90112x256_S81920x1_S81920x256_1_0_n_n_0_1_1256 : GatherDims S90112x256 S81920x1 S81920x256 where
  offsetDims := [1]
  collapsedSliceDims := [0]
  operandBatchingDims := []
  startIndicesBatchingDims := []
  startIndexMap := [0]
  indexVectorDim := 1
  sliceSizes := ![1, 256]
  wf := gather_S90112x256_S81920x1_S81920x256_1_0_n_n_0_1_1256_wf
def scatter_S8192x256_S81920x1_S81920x256_1_0_0_1 : ScatterDims S8192x256 S81920x1 S81920x256 where
  updateWindowDims := [1]
  insertedWindowDims := [0]
  scatterDimsToOperandDims := [0]
  indexVectorDim := 1
  wf := scatter_S8192x256_S81920x1_S81920x256_1_0_0_1_wf
def scatter_S8192_S81920x1_S81920_n_0_0_1 : ScatterDims S8192 S81920x1 S81920 where
  updateWindowDims := []
  insertedWindowDims := [0]
  scatterDimsToOperandDims := [0]
  indexVectorDim := 1
  wf := scatter_S8192_S81920x1_S81920_n_0_0_1_wf
def dot_S8192x256_S256x47_S8192x47_1_0_0_1_n_n : DotDims S8192x256 S256x47 S8192x47 where
  lhsContracting := [1]
  rhsContracting := [0]
  lhsNonContracting := [0]
  rhsNonContracting := [1]
  lhsBatch := []
  rhsBatch := []
  wf := dot_S8192x256_S256x47_S8192x47_1_0_0_1_n_n_wf

class Facts : Prop extends Facts₀ where

variable [Facts]
-- ==== Proof.KernelRun.lean ====
/-
  The idealized kernel's run with its result named.

  The program is four stretches in order: the host operations that build the first layer's neighbour sums and
  reciprocal degrees, the first dense layer as a grid of row blocks, the host operations that build the second
  layer's neighbour sums from the first layer's output, and the second dense layer. The buffer contents at each
  of the four boundaries are a fold through the program from the launch memory; the last of them, `W4`, holds
  every buffer as the program leaves it. Every weakly fair execution terminates, without a fault, in a state whose
  every unscoped buffer holds what `W4` says (`run_all`); read at the result buffer and at the eleven argument
  buffers, which no stretch writes, this is `run_result`.
-/
import proofs.«171095_j85203561218630_2_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any memory with zero counters every weakly fair execution of the program terminates, nothing faulting, and
    leaves every unscoped buffer at the last boundary's contents `W4`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

/-- The same run read at the result buffer and at the argument buffers: the result holds what the last boundary's
    contents hold there, and each argument what it held at launch. -/
theorem run_result : θ_run defs (onTc (τ := τ) (main (F := F))) ⟨m, fun _ => 0, ρ⟩ (fun r => ∀ c : Dev nD,
      r.2.mem ((c.tc : Thread nD τ).loc main_v39) = W4 m ρ c (Proc.devRef .tc main_v39)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨h c _ (mem_uc main_v39 (by decide)),
      (h c _ (mem_uc main_arg0 (by decide))).trans (W4_main_arg0 m ρ c),
      (h c _ (mem_uc main_arg1 (by decide))).trans (W4_main_arg1 m ρ c),
      (h c _ (mem_uc main_arg2 (by decide))).trans (W4_main_arg2 m ρ c),
      (h c _ (mem_uc main_arg3 (by decide))).trans (W4_main_arg3 m ρ c),
      (h c _ (mem_uc main_arg4 (by decide))).trans (W4_main_arg4 m ρ c),
      (h c _ (mem_uc main_arg5 (by decide))).trans (W4_main_arg5 m ρ c),
      (h c _ (mem_uc main_arg6 (by decide))).trans (W4_main_arg6 m ρ c),
      (h c _ (mem_uc main_arg7 (by decide))).trans (W4_main_arg7 m ρ c),
      (h c _ (mem_uc main_arg8 (by decide))).trans (W4_main_arg8 m ρ c),
      (h c _ (mem_uc main_arg9 (by decide))).trans (W4_main_arg9 m ρ c),
      (h c _ (mem_uc main_arg10 (by decide))).trans (W4_main_arg10 m ρ c)⟩)
    (run_all m ρ)

end Cert.KernelIdeal.Hand

end
-- ==== Proof.HostStages.lean ====
/-
  What the host operations leave in the buffers the two dense layers read.

  Before each dense layer the program builds, on the host, the layer's aggregation inputs from a source feature
  array `x`, a list of source node indices and a list of target node indices, one pair per edge:
  * `nbrSum`: the source rows gathered edge by edge (a negative index first wrapped by the row count) and
    scatter-added into a zero array at the edges' targets, so row `p` is the sum of the feature rows of `p`'s
    in-neighbours;
  * `degree`: ones scatter-added at the targets, then clamped below by one, so entry `p` is the in-degree
    of `p`, or one for an isolated node;
  * `recip`: one divided by the clamped degree, laid out as a column.
  The first layer reads these of the input features; the second of the first layer's output. The statements
  `W1_…` and `W3_…` say which of these each buffer holds when the layer's grid is entered, and that the
  weights, the bias and the features themselves are still what they were.
-/
import proofs.«171095_j85203561218630_2_alg».proof.Proof.Gen.KernelIdeal.Frame
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.SL.Sem Idealize.ShloMosaic.StableHlo

variable {F : FTy → Type} [FloatOps F]

/-! ## The first layer's aggregation inputs -/

/-- The edges' source indices, a negative one wrapped by the number of source rows, as a column. -/
def srcCol0 (src : (⟨S901120, .i32⟩ : BufTy).Contents (Elt F)) : (⟨S901120x1, .i32⟩ : BufTy).Contents (Elt F) :=
  broadcastInDim S901120x1 ![0] bcast_S901120_S901120x1_0
    (select (cmpi .slt src (broadcastInDim S901120 ![] bcast_S_S901120 (constantI S_ 32 0#32)))
      (addi src (broadcastInDim S901120 ![] bcast_S_S901120 (constantI S_ 32 991232#32))) src)

/-- Row `p`: the sum of the feature rows of `p`'s in-neighbours. -/
def nbrSum0 (x : (⟨S991232x100, .f32⟩ : BufTy).Contents (Elt F)) (src dst : (⟨S901120, .i32⟩ : BufTy).Contents (Elt F)) : (⟨S90112x100, .f32⟩ : BufTy).Contents (Elt F) :=
  Host.scatterAdd scatter_S90112x100_S901120x1_S901120x100_1_0_0_1
    (broadcastInDim S90112x100 ![] bcast_S_S90112x100 (constant S_ .f32 0x00000000#32))
    (broadcastInDim S901120x1 ![0] bcast_S901120_S901120x1_0 dst)
    (Host.gather gather_S991232x100_S901120x1_S901120x100_1_0_n_n_0_1_1100 x (srcCol0 src))

/-- Entry `p`: the in-degree of `p`, clamped below by one. -/
def degree0 (dst : (⟨S901120, .i32⟩ : BufTy).Contents (Elt F)) : (⟨S90112, .f32⟩ : BufTy).Contents (Elt F) :=
  maximumf
    (Host.scatterAdd scatter_S90112_S901120x1_S901120_n_0_0_1
      (broadcastInDim S90112 ![] bcast_S_S90112 (constant S_ .f32 0x00000000#32))
      (broadcastInDim S901120x1 ![0] bcast_S901120_S901120x1_0 dst)
      (broadcastInDim S901120 ![] bcast_S_S901120 (constant S_ .f32 0x3F800000#32)))
    (broadcastInDim S90112 ![] bcast_S_S90112 (constant S_ .f32 0x3F800000#32))

/-- One over the clamped degree, as a column. -/
def recip0 (dst : (⟨S901120, .i32⟩ : BufTy).Contents (Elt F)) : (⟨S90112x1, .f32⟩ : BufTy).Contents (Elt F) :=
  broadcastInDim S90112x1 ![0] bcast_S90112_S90112x1_0
    (Host.divf (broadcastInDim S90112 ![] bcast_S_S90112 (constant S_ .f32 0x3F800000#32)) (degree0 dst))

/-! ## The second layer's aggregation inputs -/

/-- The edges' source indices, a negative one wrapped by the number of source rows, as a column. -/
def srcCol1 (src : (⟨S81920, .i32⟩ : BufTy).Contents (Elt F)) : (⟨S81920x1, .i32⟩ : BufTy).Contents (Elt F) :=
  broadcastInDim S81920x1 ![0] bcast_S81920_S81920x1_0
    (select (cmpi .slt src (broadcastInDim S81920 ![] bcast_S_S81920 (constantI S_ 32 0#32)))
      (addi src (broadcastInDim S81920 ![] bcast_S_S81920 (constantI S_ 32 90112#32))) src)

/-- Row `p`: the sum of the hidden rows of `p`'s in-neighbours. -/
def nbrSum1 (hid : (⟨S90112x256, .f32⟩ : BufTy).Contents (Elt F)) (src dst : (⟨S81920, .i32⟩ : BufTy).Contents (Elt F)) : (⟨S8192x256, .f32⟩ : BufTy).Contents (Elt F) :=
  Host.scatterAdd scatter_S8192x256_S81920x1_S81920x256_1_0_0_1
    (broadcastInDim S8192x256 ![] bcast_S_S8192x256 (constant S_ .f32 0x00000000#32))
    (broadcastInDim S81920x1 ![0] bcast_S81920_S81920x1_0 dst)
    (Host.gather gather_S90112x256_S81920x1_S81920x256_1_0_n_n_0_1_1256 hid (srcCol1 src))

/-- Entry `p`: the in-degree of `p`, clamped below by one. -/
def degree1 (dst : (⟨S81920, .i32⟩ : BufTy).Contents (Elt F)) : (⟨S8192, .f32⟩ : BufTy).Contents (Elt F) :=
  maximumf
    (Host.scatterAdd scatter_S8192_S81920x1_S81920_n_0_0_1
      (broadcastInDim S8192 ![] bcast_S_S8192 (constant S_ .f32 0x00000000#32))
      (broadcastInDim S81920x1 ![0] bcast_S81920_S81920x1_0 dst)
      (broadcastInDim S81920 ![] bcast_S_S81920 (constant S_ .f32 0x3F800000#32)))
    (broadcastInDim S8192 ![] bcast_S_S8192 (constant S_ .f32 0x3F800000#32))

/-- One over the clamped degree, as a column. -/
def recip1 (dst : (⟨S81920, .i32⟩ : BufTy).Contents (Elt F)) : (⟨S8192x1, .f32⟩ : BufTy).Contents (Elt F) :=
  broadcastInDim S8192x1 ![0] bcast_S8192_S8192x1_0
    (Host.divf (broadcastInDim S8192 ![] bcast_S_S8192 (constant S_ .f32 0x3F800000#32)) (degree1 dst))

variable (m : (ℓ : Loc nD τ sig) → Buf (Elt F) ℓ) (ρ : Dev nD → PrngReg)

/-! ## The buffers when the first layer's grid is entered -/

theorem W1_nbrSum (c : Dev nD) : W1 m ρ c (Proc.devRef .tc main_v9)
    = nbrSum0 (m ((c : Thread nD τ).loc main_arg0)) (m ((c : Thread nD τ).loc main_arg1)) (m ((c : Thread nD τ).loc main_arg2)) := by
  show StableHlo.after hostOps0 (W0 m ρ c) (Proc.devRef .tc main_v9) = _
  after_results
  rfl

theorem W1_recip (c : Dev nD) : W1 m ρ c (Proc.devRef .tc main_v18) = recip0 (m ((c : Thread nD τ).loc main_arg2)) := by
  show StableHlo.after hostOps0 (W0 m ρ c) (Proc.devRef .tc main_v18) = _
  after_results
  rfl

theorem W1_arg0 (c : Dev nD) : W1 m ρ c (Proc.devRef .tc main_arg0) = m ((c : Thread nD τ).loc main_arg0) := by
  show StableHlo.after hostOps0 (W0 m ρ c) (Proc.devRef .tc main_arg0) = _
  after_results

theorem W1_arg5 (c : Dev nD) : W1 m ρ c (Proc.devRef .tc main_arg5) = m ((c : Thread nD τ).loc main_arg5) := by
  show StableHlo.after hostOps0 (W0 m ρ c) (Proc.devRef .tc main_arg5) = _
  after_results

theorem W1_arg6 (c : Dev nD) : W1 m ρ c (Proc.devRef .tc main_arg6) = m ((c : Thread nD τ).loc main_arg6) := by
  show StableHlo.after hostOps0 (W0 m ρ c) (Proc.devRef .tc main_arg6) = _
  after_results

theorem W1_arg7 (c : Dev nD) : W1 m ρ c (Proc.devRef .tc main_arg7) = m ((c : Thread nD τ).loc main_arg7) := by
  show StableHlo.after hostOps0 (W0 m ρ c) (Proc.devRef .tc main_arg7) = _
  after_results

theorem W1_arg3 (c : Dev nD) : W1 m ρ c (Proc.devRef .tc main_arg3) = m ((c : Thread nD τ).loc main_arg3) := by
  show StableHlo.after hostOps0 (W0 m ρ c) (Proc.devRef .tc main_arg3) = _
  after_results

theorem W1_arg4 (c : Dev nD) : W1 m ρ c (Proc.devRef .tc main_arg4) = m ((c : Thread nD τ).loc main_arg4) := by
  show StableHlo.after hostOps0 (W0 m ρ c) (Proc.devRef .tc main_arg4) = _
  after_results

theorem W1_arg8 (c : Dev nD) : W1 m ρ c (Proc.devRef .tc main_arg8) = m ((c : Thread nD τ).loc main_arg8) := by
  show StableHlo.after hostOps0 (W0 m ρ c) (Proc.devRef .tc main_arg8) = _
  after_results

theorem W1_arg9 (c : Dev nD) : W1 m ρ c (Proc.devRef .tc main_arg9) = m ((c : Thread nD τ).loc main_arg9) := by
  show StableHlo.after hostOps0 (W0 m ρ c) (Proc.devRef .tc main_arg9) = _
  after_results

theorem W1_arg10 (c : Dev nD) : W1 m ρ c (Proc.devRef .tc main_arg10) = m ((c : Thread nD τ).loc main_arg10) := by
  show StableHlo.after hostOps0 (W0 m ρ c) (Proc.devRef .tc main_arg10) = _
  after_results

/-! ## The buffers when the second layer's grid is entered -/

/-- A buffer the first stretch and the first grid leave alone holds at the first grid's exit what it held at launch. -/
theorem W2_of_untouched (c : Dev nD) (b : Ref sig .tc) (hb : ∀ w, Pipeline.arrRef spec0 w ≠ b)
    (h1 : W1 m ρ c (Proc.devRef .tc b) = m ((c : Thread nD τ).loc b)) :
    W2 m ρ c (Proc.devRef .tc b) = m ((c : Thread nD τ).loc b) :=
  (W2_of_ne m ρ c b hb).trans h1

theorem W2_arg3 (c : Dev nD) : W2 m ρ c (Proc.devRef .tc main_arg3) = m ((c : Thread nD τ).loc main_arg3) :=
  W2_of_untouched m ρ c main_arg3 (by decide) (W1_arg3 m ρ c)

theorem W2_arg4 (c : Dev nD) : W2 m ρ c (Proc.devRef .tc main_arg4) = m ((c : Thread nD τ).loc main_arg4) :=
  W2_of_untouched m ρ c main_arg4 (by decide) (W1_arg4 m ρ c)

theorem W2_arg8 (c : Dev nD) : W2 m ρ c (Proc.devRef .tc main_arg8) = m ((c : Thread nD τ).loc main_arg8) :=
  W2_of_untouched m ρ c main_arg8 (by decide) (W1_arg8 m ρ c)

theorem W2_arg9 (c : Dev nD) : W2 m ρ c (Proc.devRef .tc main_arg9) = m ((c : Thread nD τ).loc main_arg9) :=
  W2_of_untouched m ρ c main_arg9 (by decide) (W1_arg9 m ρ c)

theorem W2_arg10 (c : Dev nD) : W2 m ρ c (Proc.devRef .tc main_arg10) = m ((c : Thread nD τ).loc main_arg10) :=
  W2_of_untouched m ρ c main_arg10 (by decide) (W1_arg10 m ρ c)

theorem W3_nbrSum (c : Dev nD) : W3 m ρ c (Proc.devRef .tc main_v29)
    = nbrSum1 (W2 m ρ c (Proc.devRef .tc main_v19)) (W2 m ρ c (Proc.devRef .tc main_arg3)) (W2 m ρ c (Proc.devRef .tc main_arg4)) := by
  show StableHlo.after hostOps1 (W2 m ρ c) (Proc.devRef .tc main_v29) = _
  after_results
  rfl

theorem W3_recip (c : Dev nD) : W3 m ρ c (Proc.devRef .tc main_v38) = recip1 (W2 m ρ c (Proc.devRef .tc main_arg4)) := by
  show StableHlo.after hostOps1 (W2 m ρ c) (Proc.devRef .tc main_v38) = _
  after_results
  rfl

theorem W3_hid (c : Dev nD) : W3 m ρ c (Proc.devRef .tc main_v19) = W2 m ρ c (Proc.devRef .tc main_v19) := by
  show StableHlo.after hostOps1 (W2 m ρ c) (Proc.devRef .tc main_v19) = _
  after_results

theorem W3_arg8 (c : Dev nD) : W3 m ρ c (Proc.devRef .tc main_arg8) = W2 m ρ c (Proc.devRef .tc main_arg8) := by
  show StableHlo.after hostOps1 (W2 m ρ c) (Proc.devRef .tc main_arg8) = _
  after_results

theorem W3_arg9 (c : Dev nD) : W3 m ρ c (Proc.devRef .tc main_arg9) = W2 m ρ c (Proc.devRef .tc main_arg9) := by
  show StableHlo.after hostOps1 (W2 m ρ c) (Proc.devRef .tc main_arg9) = _
  after_results

theorem W3_arg10 (c : Dev nD) : W3 m ρ c (Proc.devRef .tc main_arg10) = W2 m ρ c (Proc.devRef .tc main_arg10) := by
  show StableHlo.after hostOps1 (W2 m ρ c) (Proc.devRef .tc main_arg10) = _
  after_results

end Cert.KernelIdeal.Hand

end
-- ==== Proof.SageSpec.lean ====
/-
  The arithmetic of one neighbour-mean graph-convolution layer, as pure functions of extended reals.

  A layer takes, for each target node `p`, the sum `A p` of its in-neighbours' feature rows and a clamped
  in-degree `C p ≥ 1`, the node's own feature row `X p`, two weight matrices and a bias, and returns
  `(A p / C p) · Wl + b + X p · Wr`. It is written here in two arrangements:
  * `linMul`: the row `A p` is first scaled by a per-node factor `s p`, both matrix products are added,
    and the bias comes last;
  * `linDiv`: every entry `A p k` is divided by `C p`, the bias is added to the first product, and the
    second product comes last.
  With `s p = 1 / C p` and `C p ≥ 1` the two agree (`linMul_eq_linDiv`): division by a nonzero extended
  real is multiplication by its reciprocal, and addition of extended reals is commutative and associative.
  No finiteness of the entries is used.

  The second layer ends in a row-wise log-softmax `logSoftmax`: with `μ` the row's maximum (folded from −∞),
  entry `j` is `(o j − μ) − log (∑ j', exp (o j' − μ))`.
-/
import Idealize.ShloMosaic.PureOps.Ideal
import Idealize.ShloMosaic.PureOps.Ideal.Laws
import Idealize.ShloMosaic.Lib.IdealHost

noncomputable section

namespace Cert.Sage

open Idealize.ShloMosaic

/-- One is positive among the extended reals. -/
theorem zero_lt_one_ereal : (0 : EReal) < 1 := by exact_mod_cast (zero_lt_one : (0 : ℝ) < 1)

/-- A divisor that is at least one is not zero, so dividing by it is multiplying by its inverse; the
    reciprocal `1 / c` is that inverse; hence `a / c = a · (1 / c)`, at infinite `a` and `c` too. -/
theorem div_eq_mul_one_div (a c : EReal) (hc : 1 ≤ c) : Ideal.div a c = a * Ideal.div 1 c := by
  have h0 : c ≠ 0 := fun h => absurd (h ▸ hc) (not_le.mpr zero_lt_one_ereal)
  unfold Ideal.div
  rw [if_neg h0, if_neg h0, one_mul]

/-- The maximum with one is at least one. -/
theorem one_le_max_one (x : EReal) : 1 ≤ max x 1 := le_max_right x 1

variable {n d h : ℕ}

/-- The layer with the neighbour sum scaled by a per-node factor first and the bias added last. -/
def linMul (A : Fin n → Fin d → EReal) (s : Fin n → EReal) (X : Fin n → Fin d → EReal)
    (Wl Wr : Fin d → Fin h → EReal) (b : Fin h → EReal) (p : Fin n) (j : Fin h) : EReal :=
  (∑ k, (A p k * s p) * Wl k j + ∑ k, X p k * Wr k j) + b j

/-- The layer with every neighbour-sum entry divided by the clamped degree and the bias added in the middle. -/
def linDiv (A : Fin n → Fin d → EReal) (C : Fin n → EReal) (X : Fin n → Fin d → EReal)
    (Wl Wr : Fin d → Fin h → EReal) (b : Fin h → EReal) (p : Fin n) (j : Fin h) : EReal :=
  (∑ k, Ideal.div (A p k) (C p) * Wl k j + b j) + ∑ k, X p k * Wr k j

/-- The two arrangements of a layer agree when the scale is the reciprocal of a degree that is at least one. -/
theorem linMul_eq_linDiv (A : Fin n → Fin d → EReal) (C : Fin n → EReal) (X : Fin n → Fin d → EReal)
    (Wl Wr : Fin d → Fin h → EReal) (b : Fin h → EReal) (hC : ∀ p, 1 ≤ C p) (p : Fin n) (j : Fin h) :
    linMul A (fun p => Ideal.div 1 (C p)) X Wl Wr b p j = linDiv A C X Wl Wr b p j := by
  unfold linMul linDiv
  have e : ∀ k, Ideal.div (A p k) (C p) = A p k * Ideal.div 1 (C p) := fun k => div_eq_mul_one_div _ _ (hC p)
  simp only [e]
  exact add_right_comm _ _ _

/-- A row's maximum, folded from −∞. -/
def rowMax (o : Fin h → EReal) : EReal :=
  (Finset.univ : Finset (Fin h)).fold max (Ideal.ofBits .f32 0xFF800000#32) o

/-- The maximum of −∞ and `y` is `y`. -/
theorem max_neg_inf (y : EReal) : max (Ideal.ofBits .f32 0xFF800000#32) y = y := by
  simp [Ideal.ofBits, Ideal.ieee]

/-- Row-wise log-softmax: shift by the row's maximum, subtract the logarithm of the sum of exponentials. -/
def logSoftmax (o : Fin h → EReal) (j : Fin h) : EReal :=
  (o j - rowMax o) - Ideal.log (∑ j', Ideal.exp (o j' - rowMax o))

end Cert.Sage

end
-- ==== Proof.LibDotSum.lean ====
/-
  A matrix product's contraction sum, re-indexed to a plain sum over its one contracted axis.

  For a dot of an `M × K` array with a `K × N` array that contracts the left operand's second axis
  against the right operand's first, the entry at `(p, q)` is the sum over the contraction index of
  `l (p, k) * r (k, q)`. The contraction index is a one-axis index of extent `K`; carrying the sum
  along the bijection with `Fin K` gives `∑ k : Fin K, l (ix2 p k) * r (ix2 k q)`.
  The coordinate facts of the dimension record are hypotheses, so that one statement serves every record
  of this plain form (for a literal record each holds by computation).
-/
import Idealize.ShloMosaic.PureOps.Ideal
import Idealize.ShloMosaic.PureOps.Dims
import Idealize.ShloMosaic.Lib.ValueIdx

noncomputable section

namespace Cert.LibDotSum

open Idealize.ShloMosaic Idealize.ShloMosaic.ValueIdx

/-- GENERAL LEMMA. For a dot record `d` on shapes `[M, K] × [K, N] → [M, N]` whose contraction shape has one
    axis of extent `K`, whose left index at `(j, k)` is `(j 0, k)` and whose right index is `(k, j 1)`, the
    contraction sum of `l` against `r` at the output index `j` is `∑ k : Fin K, l (j 0, k) * r (k, j 1)`. -/
theorem sum_contr_eq_sum_fin {M K N : Nat}
    (d : DotDims (⟨2, ![M, K]⟩ : Shape) (⟨2, ![K, N]⟩ : Shape) (⟨2, ![M, N]⟩ : Shape))
    (hrank : d.contr.rank = 1) (hsize : d.contr.size ⟨0, by omega⟩ = K)
    (hl0 : ∀ (j : (⟨2, ![M, N]⟩ : Shape).Idx) (k : d.contr.Idx), (d.lhsIdx j k 0).val = (j 0).val)
    (hl1 : ∀ (j : (⟨2, ![M, N]⟩ : Shape).Idx) (k : d.contr.Idx), (d.lhsIdx j k 1).val = (k ⟨0, by omega⟩).val)
    (hr0 : ∀ (j : (⟨2, ![M, N]⟩ : Shape).Idx) (k : d.contr.Idx), (d.rhsIdx j k 0).val = (k ⟨0, by omega⟩).val)
    (hr1 : ∀ (j : (⟨2, ![M, N]⟩ : Shape).Idx) (k : d.contr.Idx), (d.rhsIdx j k 1).val = (j 1).val)
    (l : (⟨2, ![M, K]⟩ : Shape).Idx → EReal) (r : (⟨2, ![K, N]⟩ : Shape).Idx → EReal)
    (j : (⟨2, ![M, N]⟩ : Shape).Idx) :
    ∑ k : d.contr.Idx, l (d.lhsIdx j k) * r (d.rhsIdx j k)
      = ∑ k : Fin K, l (ix2 (j 0) k) * r (ix2 k (j 1)) := by
  rw [← Equiv.sum_comp (contrEquiv1 d K hrank hsize).symm]
  refine Finset.sum_congr rfl fun k _ => ?_
  have hk : (((contrEquiv1 d K hrank hsize).symm k) ⟨0, by omega⟩ : ℕ) = k.val :=
    contrEquiv1_symm_val d K hrank hsize k
  have el : d.lhsIdx j ((contrEquiv1 d K hrank hsize).symm k) = ix2 (j 0) k := by
    funext a
    apply Fin.ext
    match a with
    | ⟨0, _⟩ => exact hl0 j _
    | ⟨1, _⟩ => exact (hl1 j _).trans hk
  have er : d.rhsIdx j ((contrEquiv1 d K hrank hsize).symm k) = ix2 k (j 1) := by
    funext a
    apply Fin.ext
    match a with
    | ⟨0, _⟩ => exact (hr0 j _).trans hk
    | ⟨1, _⟩ => exact hr1 j _
  rw [el, er]
  rfl

end Cert.LibDotSum

end
-- ==== Proof.LibKeepdims.lean ====
/-
  Keepdims column forms read at an index, and a lane sum read as a sum over the row.

  A row reduction with `keepdims` leaves a column `[a, 1]`: the reduced vector `[a]` is cast to `[a, 1]`
  (entry `(p, 0)` is entry `p`), and the column is broadcast back over the row (entry `(p, c)` is the
  column's entry `(p, 0)`). A sum over axis 1 of an `[a, b]` array, at row `p`, is the sum over `k` of
  the entries `(p, k)`.
-/
import Idealize.ShloMosaic.Lib.Pipeline.Value
import Idealize.ShloMosaic.Lib.ValueIdx
import Idealize.ShloMosaic.PureOps.Ideal.Laws

noncomputable section

namespace Cert.LibKeepdims

open Idealize.ShloMosaic Idealize.ShloMosaic.ValueIdx

variable {α : Type}

/-- GENERAL LEMMA. An `[a]` array cast to `[a, 1]` reads, at `(p, u)`, the operand at `p`. -/
theorem shapeCast_a_a1_apply {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- GENERAL LEMMA. An `[a, 1]` column broadcast to `[a, b]` reads, at `(p, c)`, the column at `(p, 0)`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- GENERAL LEMMA. The index a reduction over axis 1 of an `[a, b]` array inserts at row `p` and position `k`
    is `(p, k)`. -/
theorem lift_row {a b : ℕ} (h : (⟨2, ![a, b]⟩ : Shape).Reduces [1] ⟨1, ![a]⟩) (p : Fin a) (k : Fin b) :
    h.lift (ix1 p) k = ix2 p k := by
  funext c
  apply Fin.ext
  match c with
  | ⟨0, _⟩ => rfl
  | ⟨1, _⟩ => rfl

/-- GENERAL LEMMA. The exact sum over axis 1 of an `[a, b]` array of extended reals, at row `p`, is the sum
    over `k` of the entries `(p, k)`. -/
theorem reduceAdd_row {a b : ℕ} (h : (⟨2, ![a, b]⟩ : Shape).Reduces [1] ⟨1, ![a]⟩)
    (x : (⟨2, ![a, b]⟩ : Shape).Idx → EReal) (p : Fin a) :
    Ideal.reduceAdd h x (ix1 p) = ∑ k : Fin b, x (ix2 p k) :=
  (Ideal.reduceAdd_single h x (ix1 p)).trans
    (Finset.sum_congr rfl fun k _ => congrArg x (lift_row h p k))

end Cert.LibKeepdims

end
-- ==== Proof.Payload0.lean ====
/-
  What the first dense layer's body stores, entry by entry.

  The body loads a block of neighbour sums `x0` (rows × 100), the matching column of reciprocal degrees `x1`, the
  matching block of the nodes' own features `x2`, the two weight matrices `x3`, `x5` (100 × 256) and the bias `x4`,
  and stores `max (((x0 ∘ scaled by x1) · x3 + x2 · x5) + x4) 0`. At the ideal values the roundings to the narrower
  format are the identity and each matrix product into a zero accumulator is the plain sum over the contracted axis,
  so entry `(p, q)` of the stored block is `max (linMul …) 0` of the loaded blocks' entries.
-/
import proofs.«171095_j85203561218630_2_alg».proof.Proof.Gen.KernelIdeal.Skeleton
import proofs.«171095_j85203561218630_2_alg».proof.Proof.SageSpec
import proofs.«171095_j85203561218630_2_alg».proof.Proof.LibDotSum
import proofs.«171095_j85203561218630_2_alg».proof.Proof.LibKeepdims
import Idealize.ShloMosaic.Lib.ValueLayout
import Idealize.ShloMosaic.Lib.ValueIdx
import Idealize.ShloMosaic.Lib.Pipeline.Value
import Idealize.ShloMosaic.PureOps.Ideal.Laws

noncomputable section

namespace Cert.KernelIdeal.Hand

open Cert.KernelIdeal Cert.KernelIdeal.Gen Idealize.ShloMosaic Idealize.ShloMosaic.ValueIdx

/-- The block product's contraction at `(p, q)`: the sum over the 100 contracted positions of `l (p, k) · r (k, q)`. -/
theorem dot0_sum (l : S2048x100.Idx → EReal) (r : S100x256.Idx → EReal) (p : Fin 2048) (q : Fin 256) :
    ∑ k : dot_S2048x100_S100x256_S2048x256_1_0_0_1_n_n.contr.Idx,
        l (dot_S2048x100_S100x256_S2048x256_1_0_0_1_n_n.lhsIdx (ix2 p q) k) * r (dot_S2048x100_S100x256_S2048x256_1_0_0_1_n_n.rhsIdx (ix2 p q) k)
      = ∑ k : Fin 100, l (ix2 p k) * r (ix2 k q) :=
  Cert.LibDotSum.sum_contr_eq_sum_fin dot_S2048x100_S100x256_S2048x256_1_0_0_1_n_n rfl rfl
    (fun _ _ => rfl) (fun _ _ => rfl) (fun _ _ => rfl) (fun _ _ => rfl) l r (ix2 p q)

/-- Entry `(p, q)` of what the first layer's body stores. -/
theorem pay0_apply (x0 : Vec Ideal S2048x100 .f32) (x1 : Vec Ideal S2048x1 .f32) (x2 : Vec Ideal S2048x100 .f32)
    (x3 x5 : Vec Ideal S100x256 .f32) (x4 : Vec Ideal S256 .f32) (p : Fin 2048) (q : Fin 256) :
    k0_pay1 x0 x1 x2 x3 x5 x4 (ix2 p q)
      = max (Cert.Sage.linMul (fun p k => x0 (ix2 p k)) (fun p => x1 (ix2 p (0 : Fin 1))) (fun p k => x2 (ix2 p k))
          (fun k j => x3 (ix2 k j)) (fun k j => x5 (ix2 k j)) (fun j => x4 (ix1 j)) p q) 0 := by
  unfold k0_pay1 Cert.Sage.linMul
  simp only [maximumf_apply, addf_apply, broadcast_apply, Ideal.matmul_constant_zero_apply, dot0_sum]
  simp only [truncf_apply, mulf_apply, shapeCast_self, Cert.LibKeepdims.broadcastTo_a1_ab_apply, broadcastTo_1b_ab_apply,
    shapeCast_a_1a_apply, Scalar.ofBits, Ideal.ofBits_def, Ideal.ofBits_zero_f32]

end Cert.KernelIdeal.Hand

end
-- ==== Proof.Region0.lean ====
/-
  The first dense layer's output array, as one function of the arrays its grid finds.

  The grid has 44 points; point `t` reads rows `2048 t … 2048 t + 2047` of the neighbour sums, of the reciprocal-degree
  column and of the source features (whose first 90112 rows are the target nodes' own features), the whole of both weight
  matrices and of the bias, and writes rows `2048 t … 2048 t + 2047` of the output. So what point `t` writes back is block
  `t` of `hidden …`: entry `(r, q)` is `max (linMul … r q) 0` over the WHOLE arrays (`flushed0_eq`). The 44 blocks tile the
  90112 rows, so after the grid the output array IS `hidden …` (`hidden_final`).
-/
import proofs.«171095_j85203561218630_2_alg».proof.Proof.Gen.KernelIdeal.Frame
import proofs.«171095_j85203561218630_2_alg».proof.Proof.Payload0
import Idealize.ShloMosaic.Lib.Pipeline.Value

set_option maxRecDepth 16384

noncomputable section

namespace Cert.KernelIdeal.Hand

open Cert.KernelIdeal Cert.KernelIdeal.Gen Idealize.ShloMosaic Idealize.ShloMosaic.TcCoe Idealize.SL.Sem
open Idealize.ShloMosaic.ValueIdx
open Idealize.ShloMosaic.Pipeline (Dat)

/-- The first layer's output over whole arrays: `A` the neighbour sums, `s` the reciprocal-degree column, `x` the source
    features (row `r` of the first 90112 is target `r`'s own), `Wl`, `Wr` the weights, `b` the bias. -/
def hidden (A : S90112x100.Idx → EReal) (s : S90112x1.Idx → EReal) (x : S991232x100.Idx → EReal)
    (Wl Wr : S100x256.Idx → EReal) (b : S256.Idx → EReal) : S90112x256.Idx → EReal :=
  fun i => max (Cert.Sage.linMul (fun (r : Fin 90112) (k : Fin 100) => A (ix2 r k)) (fun (r : Fin 90112) => s (ix2 r (0 : Fin 1)))
    (fun (r : Fin 90112) (k : Fin 100) => x (ix2 (⟨r.val, by have := r.isLt; omega⟩ : Fin 991232) k))
    (fun (k : Fin 100) (j : Fin 256) => Wl (ix2 k j)) (fun (k : Fin 100) (j : Fin 256) => Wr (ix2 k j)) (fun (j : Fin 256) => b (ix1 j))
    (i 0) (i 1)) 0

theorem hz2 : (![0, 0] : Fin 2 → Nat) = fun _ => 0 := funext fun a => by fin_cases a <;> rfl
theorem hz1 : (![0] : Fin 1 → Nat) = fun _ => 0 := funext fun a => by fin_cases a <;> rfl

/-- The printed index maps over the grid: the three row-blocked inputs move with the output's row block, which is the
    point's number; the weights and the bias stay at block zero; no window moves along the columns. -/
theorem idx0 : ∀ t : Fin cfg0.N, win0_6.index t (0 : Fin 2) = t.val ∧ win0_6.index t (1 : Fin 2) = 0
    ∧ win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0 :=
  (by decide +kernel : ∀ t : Fin grid0.N, _)

section Reads

variable (V : (c : Dev nD) → (b : Ref sig .tc) → Buf (Elt Ideal) ((c : Thread nD τ).loc b))

/-- The neighbour-sum block at point `t`, entry `y`, is the array's entry `2048 t` rows further down. -/
theorem iblk0_0_read (c : Dev nD) (t : Fin cfg0.N) (y : S2048x100.Idx) (i : S90112x100.Idx)
    (h0 : (i 0).val = t.val * 2048 + (y 0).val) (h1 : (i 1).val = (y 1).val) :
    (iblk0 V c 0 t : Vec Ideal S2048x100 .f32) y = (V c main_v9 : S90112x100.Idx → EReal) i := by
  obtain ⟨-, -, e0, e1, -⟩ := idx0 t
  unfold iblk0
  rw [View.read_apply]
  show V c main_v9 _ = V c main_v9 _
  refine congrArg _ (funext fun a => Fin.ext ?_)
  match a with
  | ⟨0, _⟩ => show win0_0.index t (0 : Fin 2) * 2048 + 1 * (y 0).val = (i 0).val; rw [e0, h0]; omega
  | ⟨1, _⟩ => show win0_0.index t (1 : Fin 2) * 100 + 1 * (y 1).val = (i 1).val; rw [e1, h1]; omega

/-- The reciprocal-degree block likewise. -/
theorem iblk0_1_read (c : Dev nD) (t : Fin cfg0.N) (y : S2048x1.Idx) (i : S90112x1.Idx)
    (h0 : (i 0).val = t.val * 2048 + (y 0).val) (h1 : (i 1).val = (y 1).val) :
    (iblk0 V c 1 t : Vec Ideal S2048x1 .f32) y = (V c main_v18 : S90112x1.Idx → EReal) i := by
  obtain ⟨-, -, -, -, e0, e1, -⟩ := idx0 t
  unfold iblk0
  rw [View.read_apply]
  show V c main_v18 _ = V c main_v18 _
  refine congrArg _ (funext fun a => Fin.ext ?_)
  match a with
  | ⟨0, _⟩ => show win0_1.index t (0 : Fin 2) * 2048 + 1 * (y 0).val = (i 0).val; rw [e0, h0]; omega
  | ⟨1, _⟩ => show win0_1.index t (1 : Fin 2) * 1 + 1 * (y 1).val = (i 1).val; rw [e1, h1]; omega

/-- The own-feature block likewise, out of the source feature array. -/
theorem iblk0_2_read (c : Dev nD) (t : Fin cfg0.N) (y : S2048x100.Idx) (i : S991232x100.Idx)
    (h0 : (i 0).val = t.val * 2048 + (y 0).val) (h1 : (i 1).val = (y 1).val) :
    (iblk0 V c 2 t : Vec Ideal S2048x100 .f32) y = (V c main_arg0 : S991232x100.Idx → EReal) i := by
  obtain ⟨-, -, -, -, -, -, e0, e1, -⟩ := idx0 t
  unfold iblk0
  rw [View.read_apply]
  show V c main_arg0 _ = V c main_arg0 _
  refine congrArg _ (funext fun a => Fin.ext ?_)
  match a with
  | ⟨0, _⟩ => show win0_2.index t (0 : Fin 2) * 2048 + 1 * (y 0).val = (i 0).val; rw [e0, h0]; omega
  | ⟨1, _⟩ => show win0_2.index t (1 : Fin 2) * 100 + 1 * (y 1).val = (i 1).val; rw [e1, h1]; omega

/-- The first weight matrix's one block is the matrix. -/
theorem iblk0_3_read (c : Dev nD) (t : Fin cfg0.N) (y : S100x256.Idx) :
    (iblk0 V c 3 t : Vec Ideal S100x256 .f32) y = (V c main_arg5 : S100x256.Idx → EReal) y := by
  obtain ⟨-, -, -, -, -, -, -, -, e0, e1, -⟩ := idx0 t
  unfold iblk0
  rw [View.read_apply]
  show V c main_arg5 _ = V c main_arg5 _
  refine congrArg _ (funext fun a => Fin.ext ?_)
  match a with
  | ⟨0, _⟩ => show win0_3.index t (0 : Fin 2) * 100 + 1 * (y 0).val = (y 0).val; rw [e0]; omega
  | ⟨1, _⟩ => show win0_3.index t (1 : Fin 2) * 256 + 1 * (y 1).val = (y 1).val; rw [e1]; omega

/-- The bias's one block is the bias. -/
theorem iblk0_4_read (c : Dev nD) (t : Fin cfg0.N) (y : S256.Idx) :
    (iblk0 V c 4 t : Vec Ideal S256 .f32) y = (V c main_arg6 : S256.Idx → EReal) y := by
  obtain ⟨-, -, -, -, -, -, -, -, -, -, e0, -⟩ := idx0 t
  unfold iblk0
  rw [View.read_apply]
  show V c main_arg6 _ = V c main_arg6 _
  refine congrArg _ (funext fun a => Fin.ext ?_)
  match a with
  | ⟨0, _⟩ => show win0_4.index t (0 : Fin 1) * 256 + 1 * (y 0).val = (y 0).val; rw [e0]; omega

/-- The second weight matrix's one block is the matrix. -/
theorem iblk0_5_read (c : Dev nD) (t : Fin cfg0.N) (y : S100x256.Idx) :
    (iblk0 V c 5 t : Vec Ideal S100x256 .f32) y = (V c main_arg7 : S100x256.Idx → EReal) y := by
  obtain ⟨-, -, -, -, -, -, -, -, -, -, -, e0, e1⟩ := idx0 t
  unfold iblk0
  rw [View.read_apply]
  show V c main_arg7 _ = V c main_arg7 _
  refine congrArg _ (funext fun a => Fin.ext ?_)
  match a with
  | ⟨0, _⟩ => show win0_5.index t (0 : Fin 2) * 100 + 1 * (y 0).val = (y 0).val; rw [e0]; omega
  | ⟨1, _⟩ => show win0_5.index t (1 : Fin 2) * 256 + 1 * (y 1).val = (y 1).val; rw [e1]; omega

end Reads

/-- `hidden` at explicit coordinates. -/
theorem hidden_ix2 (A : S90112x100.Idx → EReal) (s : S90112x1.Idx → EReal) (x : S991232x100.Idx → EReal)
    (Wl Wr : S100x256.Idx → EReal) (b : S256.Idx → EReal) (r : Fin 90112) (q : Fin 256) :
    hidden A s x Wl Wr b (ix2 r q)
      = max (Cert.Sage.linMul (fun (r : Fin 90112) (k : Fin 100) => A (ix2 r k)) (fun (r : Fin 90112) => s (ix2 r (0 : Fin 1)))
          (fun (r : Fin 90112) (k : Fin 100) => x (ix2 (⟨r.val, by have := r.isLt; omega⟩ : Fin 991232) k))
          (fun (k : Fin 100) (j : Fin 256) => Wl (ix2 k j)) (fun (k : Fin 100) (j : Fin 256) => Wr (ix2 k j)) (fun (j : Fin 256) => b (ix1 j))
          r q) 0 := rfl

section Final

variable (V : (c : Dev nD) → (b : Ref sig .tc) → Buf (Elt Ideal) ((c : Thread nD τ).loc b))

/-- WHAT POINT `t` WRITES BACK is block `t` of `hidden` of the arrays as the grid finds them. -/
theorem flushed0_eq (c : Dev nD) (t : Fin cfg0.N) :
    (dat0 V c).flushed 6 t = ((cfg0.win 6).blk t).view.read (Elt Ideal)
      (hidden (V c main_v9) (V c main_v18) (V c main_arg0) (V c main_arg5) (V c main_arg7) (V c main_arg6)) := by
  show (cfg0.win 6).cut (grid0.coords t) ((dat0 V c).after 6 t) = _
  rw [after0_6]
  unfold out0_6
  rw [View.canon_unit_zero hz2]
  simp only [View.ld_unit_zero (S := S2048x100) hz2, View.ld_unit_zero (S := S2048x1) hz2, View.ld_unit_zero (S := S100x256) hz2,
    View.ld_unit_zero (S := S256) hz1]
  obtain ⟨o0, o1, -⟩ := idx0 t
  have hN : cfg0.N = 44 := N_0
  funext j
  obtain ⟨p, q, rfl⟩ : ∃ (p : Fin 2048) (q : Fin 256), j = ix2 p q := ⟨j 0, j 1, eq_ix2 j⟩
  have hlt : t.val * 2048 + p.val < 90112 := by have := t.isLt; have := p.isLt; omega
  have hi : ((cfg0.win 6).blk t).view.emb (ix2 p q) = (ix2 (⟨t.val * 2048 + p.val, hlt⟩ : Fin 90112) q : S90112x256.Idx) := by
    funext a
    apply Fin.ext
    match a with
    | ⟨0, _⟩ => show win0_6.index t (0 : Fin 2) * 2048 + 1 * p.val = t.val * 2048 + p.val; rw [o0]; omega
    | ⟨1, _⟩ => show win0_6.index t (1 : Fin 2) * 256 + 1 * q.val = q.val; rw [o1]; omega
  show k0_pay1 (iblk0 V c 0 t) (iblk0 V c 1 t) (iblk0 V c 2 t) (iblk0 V c 3 t) (iblk0 V c 5 t) (iblk0 V c 4 t) (ix2 p q)
      = hidden (V c main_v9) (V c main_v18) (V c main_arg0) (V c main_arg5) (V c main_arg7) (V c main_arg6)
          (((cfg0.win 6).blk t).view.emb (ix2 p q))
  rw [hi, hidden_ix2]
  refine (pay0_apply (iblk0 V c 0 t) (iblk0 V c 1 t) (iblk0 V c 2 t) (iblk0 V c 3 t) (iblk0 V c 5 t) (iblk0 V c 4 t) p q).trans ?_
  unfold Cert.Sage.linMul
  refine congrArg (fun z => max z 0) ?_
  refine congrArg₂ (· + ·) (congrArg₂ (· + ·) (Finset.sum_congr rfl fun k _ => ?_) (Finset.sum_congr rfl fun k _ => ?_)) ?_
  · exact congrArg₂ (· * ·) (congrArg₂ (· * ·) (iblk0_0_read V c t (ix2 p k) (ix2 (⟨t.val * 2048 + p.val, hlt⟩ : Fin 90112) k) rfl rfl)
      (iblk0_1_read V c t (ix2 p (0 : Fin 1)) (ix2 (⟨t.val * 2048 + p.val, hlt⟩ : Fin 90112) (0 : Fin 1)) rfl rfl)) (iblk0_3_read V c t (ix2 k q))
  · exact congrArg₂ (· * ·) (iblk0_2_read V c t (ix2 p k) (ix2 (⟨t.val * 2048 + p.val, by omega⟩ : Fin 991232) k) rfl rfl) (iblk0_5_read V c t (ix2 k q))
  · exact iblk0_4_read V c t (ix1 q)

/-- An index of the output array is in point `t`'s block iff each coordinate is in the block's range on its axis. -/
theorem mem_blk0 (t : Fin cfg0.N) (i : S90112x256.Idx) :
    i ∈ ((cfg0.win 6).blk t).view.set ↔ ∀ a : Fin 2, win0_6.index t a * S2048x256.size a ≤ (i a).val ∧ (i a).val < win0_6.index t a * S2048x256.size a + S2048x256.size a := by
  show i ∈ ((View.whole main_v19).slice (win0_6.rect t)).set ↔ _
  rw [View.set_slice_whole, Rect.mem_set_unit]
  exact Iff.rfl

/-- Every row of the output is in the block of the point numbered by the row divided by 2048. -/
theorem cover0 (i : S90112x256.Idx) : ∃ t : Fin cfg0.N, (cfg0.win 6).flush t = true ∧ i ∈ ((cfg0.win 6).blk t).view.set := by
  have hi0 : (i 0).val < 90112 := (i 0).isLt
  have hi1 : (i 1).val < 256 := (i 1).isLt
  have hN : cfg0.N = 44 := N_0
  have ht : (i 0).val / 2048 < cfg0.N := by rw [hN]; omega
  obtain ⟨o0, o1, -⟩ := idx0 ⟨(i 0).val / 2048, ht⟩
  refine ⟨⟨(i 0).val / 2048, ht⟩, flush0_6 _, ?_⟩
  rw [mem_blk0]
  intro a
  match a with
  | ⟨0, _⟩ =>
    show win0_6.index ⟨(i 0).val / 2048, ht⟩ (0 : Fin 2) * 2048 ≤ (i 0).val ∧ (i 0).val < win0_6.index ⟨(i 0).val / 2048, ht⟩ (0 : Fin 2) * 2048 + 2048
    rw [o0]
    show (i 0).val / 2048 * 2048 ≤ (i 0).val ∧ (i 0).val < (i 0).val / 2048 * 2048 + 2048
    omega
  | ⟨1, _⟩ =>
    show win0_6.index ⟨(i 0).val / 2048, ht⟩ (1 : Fin 2) * 256 ≤ (i 1).val ∧ (i 1).val < win0_6.index ⟨(i 0).val / 2048, ht⟩ (1 : Fin 2) * 256 + 256
    rw [o1]
    omega

/-- THE OUTPUT ARRAY after the grid is `hidden` of the arrays as the grid finds them. -/
theorem hidden_final (c : Dev nD) : (dat0 V c).arrAt 6 cfg0.N
    = hidden (V c main_v9) (V c main_v18) (V c main_arg0) (V c main_arg5) (V c main_arg7) (V c main_arg6) :=
  (dat0 V c).arrAt_eq_of_cover 6 _ (fun t _ => flushed0_eq V c t) cover0

end Final

end Cert.KernelIdeal.Hand

end
-- ==== Proof.Payload1.lean ====
/-
  What the second dense layer's body stores, entry by entry.

  The body forms, from a block of neighbour sums `x0` (rows × 256), the matching column of reciprocal degrees `x1`,
  the matching block of hidden rows `x2`, the two weight matrices `x3`, `x5` (256 × 47) and the bias `x4`, the block
  `o = ((x0 ∘ scaled by x1) · x3 + x2 · x5) + x4` (`pre1`), and stores its row-wise log-softmax (`lsmBlock o`): each row
  shifted by its maximum, minus the logarithm of the row's sum of exponentials of the shifted entries.
  At the ideal values entry `(p, j)` of `o` is `linMul … p j`; the lane maximum is the fold of `max` from −∞ over the
  row and the lane sum the sum over the row, so entry `(p, q)` of the stored block is `logSoftmax` of row `p` at `q`.
-/
import proofs.«171095_j85203561218630_2_alg».proof.Proof.Gen.KernelIdeal.Skeleton
import proofs.«171095_j85203561218630_2_alg».proof.Proof.SageSpec
import proofs.«171095_j85203561218630_2_alg».proof.Proof.LibDotSum
import proofs.«171095_j85203561218630_2_alg».proof.Proof.LibKeepdims
import Idealize.ShloMosaic.Lib.ValueLayout
import Idealize.ShloMosaic.Lib.ValueIdx
import Idealize.ShloMosaic.Lib.Pipeline.Value
import Idealize.ShloMosaic.PureOps.Ideal.Laws

noncomputable section

namespace Cert.KernelIdeal.Hand

open Cert.KernelIdeal Cert.KernelIdeal.Gen Idealize.ShloMosaic Idealize.ShloMosaic.ValueIdx

/-- The block product's contraction at `(p, q)`: the sum over the 256 contracted positions of `l (p, k) · r (k, q)`. -/
theorem dot1_sum (l : S1024x256.Idx → EReal) (r : S256x47.Idx → EReal) (p : Fin 1024) (q : Fin 47) :
    ∑ k : dot_S1024x256_S256x47_S1024x47_1_0_0_1_n_n.contr.Idx,
        l (dot_S1024x256_S256x47_S1024x47_1_0_0_1_n_n.lhsIdx (ix2 p q) k) * r (dot_S1024x256_S256x47_S1024x47_1_0_0_1_n_n.rhsIdx (ix2 p q) k)
      = ∑ k : Fin 256, l (ix2 p k) * r (ix2 k q) :=
  Cert.LibDotSum.sum_contr_eq_sum_fin dot_S1024x256_S256x47_S1024x47_1_0_0_1_n_n rfl rfl
    (fun _ _ => rfl) (fun _ _ => rfl) (fun _ _ => rfl) (fun _ _ => rfl) l r (ix2 p q)

/-- The block before the softmax: both products added, then the bias along every row. -/
def pre1 (x0 : Vec Ideal S1024x256 .f32) (x1 : Vec Ideal S1024x1 .f32) (x2 : Vec Ideal S1024x256 .f32)
    (x3 x5 : Vec Ideal S256x47 .f32) (x4 : Vec Ideal S47 .f32) : FVec Ideal S1024x47 .f32 :=
  addf
    (addf
      (matmul dot_S1024x256_S256x47_S1024x47_1_0_0_1_n_n none
        (truncf .bf16 (mulf (shapeCast S1024x256 x0 shapeCasts_S1024x256_S1024x256)
          (broadcastTo S1024x256 (shapeCast S1024x1 x1 shapeCasts_S1024x1_S1024x1) broadcasts_S1024x1_S1024x256)) bitsLt_bf16_f32)
        (truncf .bf16 x3 bitsLt_bf16_f32) (constant S1024x47 .f32 0x00000000#32))
      (matmul dot_S1024x256_S256x47_S1024x47_1_0_0_1_n_n none
        (truncf .bf16 (shapeCast S1024x256 x2 shapeCasts_S1024x256_S1024x256) bitsLt_bf16_f32)
        (truncf .bf16 x5 bitsLt_bf16_f32) (constant S1024x47 .f32 0x00000000#32)))
    (broadcastTo S1024x47 (shapeCast S1x47 x4 shapeCasts_S47_S1x47) broadcasts_S1x47_S1024x47)

/-- The row-wise log-softmax of a block, as the body spells it. -/
def lsmBlock (o : FVec Ideal S1024x47 .f32) : FVec Ideal S1024x47 .f32 :=
  subf
    (subf o (broadcastTo S1024x47 (shapeCast S1024x1
      (multiReduction .maximumf [1] S1024 o 0xFF800000#32 reduces_S1024x47_S1024 (.inl rfl) rfl) shapeCasts_S1024_S1024x1)
      broadcasts_S1024x1_S1024x47))
    (broadcastTo S1024x47
      (log (shapeCast S1024x1
        (multiReduction .add [1] S1024
          (exp (subf o (broadcastTo S1024x47 (shapeCast S1024x1
            (multiReduction .maximumf [1] S1024 o 0xFF800000#32 reduces_S1024x47_S1024 (.inl rfl) rfl) shapeCasts_S1024_S1024x1)
            broadcasts_S1024x1_S1024x47)))
          0x00000000#32 reduces_S1024x47_S1024 (.inl rfl) rfl) shapeCasts_S1024_S1024x1))
      broadcasts_S1024x1_S1024x47)

/-- The body's stored block is the log-softmax of the block before it. -/
theorem k1_pay1_eq (x0 : Vec Ideal S1024x256 .f32) (x1 : Vec Ideal S1024x1 .f32) (x2 : Vec Ideal S1024x256 .f32)
    (x3 x5 : Vec Ideal S256x47 .f32) (x4 : Vec Ideal S47 .f32) :
    k1_pay1 x0 x1 x2 x3 x5 x4 = lsmBlock (pre1 x0 x1 x2 x3 x5 x4) := rfl

/-- Entry `(p, j)` of the block before the softmax. -/
theorem pre1_apply (x0 : Vec Ideal S1024x256 .f32) (x1 : Vec Ideal S1024x1 .f32) (x2 : Vec Ideal S1024x256 .f32)
    (x3 x5 : Vec Ideal S256x47 .f32) (x4 : Vec Ideal S47 .f32) (p : Fin 1024) (j : Fin 47) :
    pre1 x0 x1 x2 x3 x5 x4 (ix2 p j)
      = Cert.Sage.linMul (fun p k => x0 (ix2 p k)) (fun p => x1 (ix2 p (0 : Fin 1))) (fun p k => x2 (ix2 p k))
          (fun k j => x3 (ix2 k j)) (fun k j => x5 (ix2 k j)) (fun j => x4 (ix1 j)) p j := by
  unfold pre1 Cert.Sage.linMul
  simp only [addf_apply, Ideal.matmul_constant_zero_apply, dot1_sum]
  simp only [truncf_apply, mulf_apply, shapeCast_self, Cert.LibKeepdims.broadcastTo_a1_ab_apply, broadcastTo_1b_ab_apply,
    shapeCast_a_1a_apply]

/-- A row's lane maximum: the fold of `max` from −∞ over the row's 47 entries. -/
theorem rowMax_apply (o : FVec Ideal S1024x47 .f32) (p : Fin 1024) :
    multiReduction .maximumf [1] S1024 o 0xFF800000#32 reduces_S1024x47_S1024 (.inl rfl) rfl (ix1 p)
      = Cert.Sage.rowMax (fun j : Fin 47 => o (ix2 p j)) :=
  (Ideal.multiReduction_maximumf_single o _ reduces_S1024x47_S1024 (.inl rfl) rfl (ix1 p)).trans
    (congrArg (fun f => Finset.fold max (Ideal.ofBits .f32 0xFF800000#32) f (Finset.univ : Finset (Fin 47)))
      (funext fun k => congrArg o (Cert.LibKeepdims.lift_row reduces_S1024x47_S1024 p k)))

/-- A row's lane sum: the sum of the row's 47 entries. -/
theorem rowSum_apply (o : FVec Ideal S1024x47 .f32) (p : Fin 1024) :
    multiReduction .add [1] S1024 o 0x00000000#32 reduces_S1024x47_S1024 (.inl rfl) rfl (ix1 p) = ∑ k : Fin 47, o (ix2 p k) :=
  (Ideal.multiReduction_add_single o _ reduces_S1024x47_S1024 (.inl rfl) rfl (ix1 p)).trans
    (Finset.sum_congr rfl fun k _ => congrArg o (Cert.LibKeepdims.lift_row reduces_S1024x47_S1024 p k))

theorem exp_apply' {s : Shape} (a : FVec Ideal s .f32) (i : s.Idx) : exp a i = Ideal.exp (a i) := rfl
theorem log_apply' {s : Shape} (a : FVec Ideal s .f32) (i : s.Idx) : log a i = Ideal.log (a i) := rfl

/-- Entry `(p, q)` of the log-softmax block: the log-softmax of row `p` at `q`. -/
theorem lsmBlock_apply (o : FVec Ideal S1024x47 .f32) (p : Fin 1024) (q : Fin 47) :
    lsmBlock o (ix2 p q) = Cert.Sage.logSoftmax (fun j : Fin 47 => o (ix2 p j)) q := by
  unfold lsmBlock Cert.Sage.logSoftmax
  simp only [subf_apply, Cert.LibKeepdims.broadcastTo_a1_ab_apply, Cert.LibKeepdims.shapeCast_a_a1_apply, log_apply', exp_apply']
  rw [rowMax_apply, rowSum_apply]
  simp only [subf_apply, Cert.LibKeepdims.broadcastTo_a1_ab_apply, Cert.LibKeepdims.shapeCast_a_a1_apply, exp_apply']
  rw [rowMax_apply]

/-- Entry `(p, q)` of what the second layer's body stores. -/
theorem pay1_apply (x0 : Vec Ideal S1024x256 .f32) (x1 : Vec Ideal S1024x1 .f32) (x2 : Vec Ideal S1024x256 .f32)
    (x3 x5 : Vec Ideal S256x47 .f32) (x4 : Vec Ideal S47 .f32) (p : Fin 1024) (q : Fin 47) :
    k1_pay1 x0 x1 x2 x3 x5 x4 (ix2 p q)
      = Cert.Sage.logSoftmax (fun j : Fin 47 =>
          Cert.Sage.linMul (fun p k => x0 (ix2 p k)) (fun p => x1 (ix2 p (0 : Fin 1))) (fun p k => x2 (ix2 p k))
            (fun k j => x3 (ix2 k j)) (fun k j => x5 (ix2 k j)) (fun j => x4 (ix1 j)) p j) q := by
  rw [k1_pay1_eq, lsmBlock_apply]
  simp only [pre1_apply]

end Cert.KernelIdeal.Hand

end
-- ==== Proof.Region1.lean ====
/-
  The second dense layer's output array, as one function of the arrays its grid finds.

  The grid has 8 points; point `t` reads rows `1024 t … 1024 t + 1023` of the second layer's neighbour sums, of its
  reciprocal-degree column and of the hidden array (whose first 8192 rows are the target nodes' own hidden rows), the whole
  of both weight matrices and of the bias, and writes rows `1024 t … 1024 t + 1023` of the result. What point `t` writes back
  is block `t` of `logits …`: row `r` is the log-softmax of `linMul … r` over the WHOLE arrays (`flushed1_eq`). The 8 blocks
  tile the 8192 rows, so after the grid the result array IS `logits …` (`logits_final`).
-/
import proofs.«171095_j85203561218630_2_alg».proof.Proof.Gen.KernelIdeal.Frame
import proofs.«171095_j85203561218630_2_alg».proof.Proof.Payload1
import proofs.«171095_j85203561218630_2_alg».proof.Proof.Region0
import Idealize.ShloMosaic.Lib.Pipeline.Value

set_option maxRecDepth 16384

noncomputable section

namespace Cert.KernelIdeal.Hand

open Cert.KernelIdeal Cert.KernelIdeal.Gen Idealize.ShloMosaic Idealize.ShloMosaic.TcCoe Idealize.SL.Sem
open Idealize.ShloMosaic.ValueIdx
open Idealize.ShloMosaic.Pipeline (Dat)

/-- Row `r` of the second layer before the softmax, over whole arrays: `A` the neighbour sums, `s` the reciprocal-degree
    column, `hid` the hidden array (row `r` of its first 8192 is target `r`'s own), `Wl`, `Wr` the weights, `b` the bias. -/
def preRow (A : S8192x256.Idx → EReal) (s : S8192x1.Idx → EReal) (hid : S90112x256.Idx → EReal)
    (Wl Wr : S256x47.Idx → EReal) (b : S47.Idx → EReal) (r : Fin 8192) (j : Fin 47) : EReal :=
  Cert.Sage.linMul (fun (r : Fin 8192) (k : Fin 256) => A (ix2 r k)) (fun (r : Fin 8192) => s (ix2 r (0 : Fin 1)))
    (fun (r : Fin 8192) (k : Fin 256) => hid (ix2 (⟨r.val, by have := r.isLt; omega⟩ : Fin 90112) k))
    (fun (k : Fin 256) (j : Fin 47) => Wl (ix2 k j)) (fun (k : Fin 256) (j : Fin 47) => Wr (ix2 k j)) (fun (j : Fin 47) => b (ix1 j)) r j

/-- The result over whole arrays: each row's log-softmax. -/
def logits (A : S8192x256.Idx → EReal) (s : S8192x1.Idx → EReal) (hid : S90112x256.Idx → EReal)
    (Wl Wr : S256x47.Idx → EReal) (b : S47.Idx → EReal) : S8192x47.Idx → EReal :=
  fun i => Cert.Sage.logSoftmax (fun j : Fin 47 => preRow A s hid Wl Wr b (i 0) j) (i 1)

/-- `logits` at explicit coordinates. -/
theorem logits_ix2 (A : S8192x256.Idx → EReal) (s : S8192x1.Idx → EReal) (hid : S90112x256.Idx → EReal)
    (Wl Wr : S256x47.Idx → EReal) (b : S47.Idx → EReal) (r : Fin 8192) (q : Fin 47) :
    logits A s hid Wl Wr b (ix2 r q) = Cert.Sage.logSoftmax (fun j : Fin 47 => preRow A s hid Wl Wr b r j) q := rfl

/-- The printed index maps over the grid: the three row-blocked inputs move with the output's row block, which is the
    point's number; the weights and the bias stay at block zero; no window moves along the columns. -/
theorem idx1 : ∀ t : Fin cfg1.N, win1_6.index t (0 : Fin 2) = t.val ∧ win1_6.index t (1 : Fin 2) = 0
    ∧ win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 1) = 0
    ∧ win1_5.index t (0 : Fin 2) = 0 ∧ win1_5.index t (1 : Fin 2) = 0 :=
  (by decide +kernel : ∀ t : Fin grid1.N, _)

section Reads

variable (V : (c : Dev nD) → (b : Ref sig .tc) → Buf (Elt Ideal) ((c : Thread nD τ).loc b))

/-- The neighbour-sum block at point `t`, entry `y`, is the array's entry `1024 t` rows further down. -/
theorem iblk1_0_read (c : Dev nD) (t : Fin cfg1.N) (y : S1024x256.Idx) (i : S8192x256.Idx)
    (h0 : (i 0).val = t.val * 1024 + (y 0).val) (h1 : (i 1).val = (y 1).val) :
    (iblk1 V c 0 t : Vec Ideal S1024x256 .f32) y = (V c main_v29 : S8192x256.Idx → EReal) i := by
  obtain ⟨-, -, e0, e1, -⟩ := idx1 t
  unfold iblk1
  rw [View.read_apply]
  show V c main_v29 _ = V c main_v29 _
  refine congrArg _ (funext fun a => Fin.ext ?_)
  match a with
  | ⟨0, _⟩ => show win1_0.index t (0 : Fin 2) * 1024 + 1 * (y 0).val = (i 0).val; rw [e0, h0]; omega
  | ⟨1, _⟩ => show win1_0.index t (1 : Fin 2) * 256 + 1 * (y 1).val = (i 1).val; rw [e1, h1]; omega

/-- The reciprocal-degree block likewise. -/
theorem iblk1_1_read (c : Dev nD) (t : Fin cfg1.N) (y : S1024x1.Idx) (i : S8192x1.Idx)
    (h0 : (i 0).val = t.val * 1024 + (y 0).val) (h1 : (i 1).val = (y 1).val) :
    (iblk1 V c 1 t : Vec Ideal S1024x1 .f32) y = (V c main_v38 : S8192x1.Idx → EReal) i := by
  obtain ⟨-, -, -, -, e0, e1, -⟩ := idx1 t
  unfold iblk1
  rw [View.read_apply]
  show V c main_v38 _ = V c main_v38 _
  refine congrArg _ (funext fun a => Fin.ext ?_)
  match a with
  | ⟨0, _⟩ => show win1_1.index t (0 : Fin 2) * 1024 + 1 * (y 0).val = (i 0).val; rw [e0, h0]; omega
  | ⟨1, _⟩ => show win1_1.index t (1 : Fin 2) * 1 + 1 * (y 1).val = (i 1).val; rw [e1, h1]; omega

/-- The own-hidden-row block likewise, out of the hidden array. -/
theorem iblk1_2_read (c : Dev nD) (t : Fin cfg1.N) (y : S1024x256.Idx) (i : S90112x256.Idx)
    (h0 : (i 0).val = t.val * 1024 + (y 0).val) (h1 : (i 1).val = (y 1).val) :
    (iblk1 V c 2 t : Vec Ideal S1024x256 .f32) y = (V c main_v19 : S90112x256.Idx → EReal) i := by
  obtain ⟨-, -, -, -, -, -, e0, e1, -⟩ := idx1 t
  unfold iblk1
  rw [View.read_apply]
  show V c main_v19 _ = V c main_v19 _
  refine congrArg _ (funext fun a => Fin.ext ?_)
  match a with
  | ⟨0, _⟩ => show win1_2.index t (0 : Fin 2) * 1024 + 1 * (y 0).val = (i 0).val; rw [e0, h0]; omega
  | ⟨1, _⟩ => show win1_2.index t (1 : Fin 2) * 256 + 1 * (y 1).val = (i 1).val; rw [e1, h1]; omega

/-- The first weight matrix's one block is the matrix. -/
theorem iblk1_3_read (c : Dev nD) (t : Fin cfg1.N) (y : S256x47.Idx) :
    (iblk1 V c 3 t : Vec Ideal S256x47 .f32) y = (V c main_arg8 : S256x47.Idx → EReal) y := by
  obtain ⟨-, -, -, -, -, -, -, -, e0, e1, -⟩ := idx1 t
  unfold iblk1
  rw [View.read_apply]
  show V c main_arg8 _ = V c main_arg8 _
  refine congrArg _ (funext fun a => Fin.ext ?_)
  match a with
  | ⟨0, _⟩ => show win1_3.index t (0 : Fin 2) * 256 + 1 * (y 0).val = (y 0).val; rw [e0]; omega
  | ⟨1, _⟩ => show win1_3.index t (1 : Fin 2) * 47 + 1 * (y 1).val = (y 1).val; rw [e1]; omega

/-- The bias's one block is the bias. -/
theorem iblk1_4_read (c : Dev nD) (t : Fin cfg1.N) (y : S47.Idx) :
    (iblk1 V c 4 t : Vec Ideal S47 .f32) y = (V c main_arg9 : S47.Idx → EReal) y := by
  obtain ⟨-, -, -, -, -, -, -, -, -, -, e0, -⟩ := idx1 t
  unfold iblk1
  rw [View.read_apply]
  show V c main_arg9 _ = V c main_arg9 _
  refine congrArg _ (funext fun a => Fin.ext ?_)
  match a with
  | ⟨0, _⟩ => show win1_4.index t (0 : Fin 1) * 47 + 1 * (y 0).val = (y 0).val; rw [e0]; omega

/-- The second weight matrix's one block is the matrix. -/
theorem iblk1_5_read (c : Dev nD) (t : Fin cfg1.N) (y : S256x47.Idx) :
    (iblk1 V c 5 t : Vec Ideal S256x47 .f32) y = (V c main_arg10 : S256x47.Idx → EReal) y := by
  obtain ⟨-, -, -, -, -, -, -, -, -, -, -, e0, e1⟩ := idx1 t
  unfold iblk1
  rw [View.read_apply]
  show V c main_arg10 _ = V c main_arg10 _
  refine congrArg _ (funext fun a => Fin.ext ?_)
  match a with
  | ⟨0, _⟩ => show win1_5.index t (0 : Fin 2) * 256 + 1 * (y 0).val = (y 0).val; rw [e0]; omega
  | ⟨1, _⟩ => show win1_5.index t (1 : Fin 2) * 47 + 1 * (y 1).val = (y 1).val; rw [e1]; omega

end Reads

section Final

variable (V : (c : Dev nD) → (b : Ref sig .tc) → Buf (Elt Ideal) ((c : Thread nD τ).loc b))

/-- WHAT POINT `t` WRITES BACK is block `t` of `logits` of the arrays as the grid finds them. -/
theorem flushed1_eq (c : Dev nD) (t : Fin cfg1.N) :
    (dat1 V c).flushed 6 t = ((cfg1.win 6).blk t).view.read (Elt Ideal)
      (logits (V c main_v29) (V c main_v38) (V c main_v19) (V c main_arg8) (V c main_arg10) (V c main_arg9)) := by
  show (cfg1.win 6).cut (grid1.coords t) ((dat1 V c).after 6 t) = _
  rw [after1_6]
  unfold out1_6
  rw [View.canon_unit_zero hz2]
  simp only [View.ld_unit_zero (S := S1024x256) hz2, View.ld_unit_zero (S := S1024x1) hz2, View.ld_unit_zero (S := S256x47) hz2,
    View.ld_unit_zero (S := S47) hz1]
  obtain ⟨o0, o1, -⟩ := idx1 t
  have hN : cfg1.N = 8 := N_1
  funext j
  obtain ⟨p, q, rfl⟩ : ∃ (p : Fin 1024) (q : Fin 47), j = ix2 p q := ⟨j 0, j 1, eq_ix2 j⟩
  have hlt : t.val * 1024 + p.val < 8192 := by have := t.isLt; have := p.isLt; omega
  have hi : ((cfg1.win 6).blk t).view.emb (ix2 p q) = (ix2 (⟨t.val * 1024 + p.val, hlt⟩ : Fin 8192) q : S8192x47.Idx) := by
    funext a
    apply Fin.ext
    match a with
    | ⟨0, _⟩ => show win1_6.index t (0 : Fin 2) * 1024 + 1 * p.val = t.val * 1024 + p.val; rw [o0]; omega
    | ⟨1, _⟩ => show win1_6.index t (1 : Fin 2) * 47 + 1 * q.val = q.val; rw [o1]; omega
  show k1_pay1 (iblk1 V c 0 t) (iblk1 V c 1 t) (iblk1 V c 2 t) (iblk1 V c 3 t) (iblk1 V c 5 t) (iblk1 V c 4 t) (ix2 p q)
      = logits (V c main_v29) (V c main_v38) (V c main_v19) (V c main_arg8) (V c main_arg10) (V c main_arg9)
          (((cfg1.win 6).blk t).view.emb (ix2 p q))
  rw [hi, logits_ix2]
  refine (pay1_apply (iblk1 V c 0 t) (iblk1 V c 1 t) (iblk1 V c 2 t) (iblk1 V c 3 t) (iblk1 V c 5 t) (iblk1 V c 4 t) p q).trans ?_
  refine congrArg (fun f => Cert.Sage.logSoftmax f q) (funext fun j => ?_)
  unfold preRow Cert.Sage.linMul
  refine congrArg₂ (· + ·) (congrArg₂ (· + ·) (Finset.sum_congr rfl fun k _ => ?_) (Finset.sum_congr rfl fun k _ => ?_)) ?_
  · exact congrArg₂ (· * ·) (congrArg₂ (· * ·) (iblk1_0_read V c t (ix2 p k) (ix2 (⟨t.val * 1024 + p.val, hlt⟩ : Fin 8192) k) rfl rfl)
      (iblk1_1_read V c t (ix2 p (0 : Fin 1)) (ix2 (⟨t.val * 1024 + p.val, hlt⟩ : Fin 8192) (0 : Fin 1)) rfl rfl)) (iblk1_3_read V c t (ix2 k j))
  · exact congrArg₂ (· * ·) (iblk1_2_read V c t (ix2 p k) (ix2 (⟨t.val * 1024 + p.val, by omega⟩ : Fin 90112) k) rfl rfl) (iblk1_5_read V c t (ix2 k j))
  · exact iblk1_4_read V c t (ix1 j)

/-- An index of the result array is in point `t`'s block iff each coordinate is in the block's range on its axis. -/
theorem mem_blk1 (t : Fin cfg1.N) (i : S8192x47.Idx) :
    i ∈ ((cfg1.win 6).blk t).view.set ↔ ∀ a : Fin 2, win1_6.index t a * S1024x47.size a ≤ (i a).val ∧ (i a).val < win1_6.index t a * S1024x47.size a + S1024x47.size a := by
  show i ∈ ((View.whole main_v39).slice (win1_6.rect t)).set ↔ _
  rw [View.set_slice_whole, Rect.mem_set_unit]
  exact Iff.rfl

/-- Every row of the result is in the block of the point numbered by the row divided by 1024. -/
theorem cover1 (i : S8192x47.Idx) : ∃ t : Fin cfg1.N, (cfg1.win 6).flush t = true ∧ i ∈ ((cfg1.win 6).blk t).view.set := by
  have hi0 : (i 0).val < 8192 := (i 0).isLt
  have hi1 : (i 1).val < 47 := (i 1).isLt
  have hN : cfg1.N = 8 := N_1
  have ht : (i 0).val / 1024 < cfg1.N := by rw [hN]; omega
  obtain ⟨o0, o1, -⟩ := idx1 ⟨(i 0).val / 1024, ht⟩
  refine ⟨⟨(i 0).val / 1024, ht⟩, flush1_6 _, ?_⟩
  rw [mem_blk1]
  intro a
  match a with
  | ⟨0, _⟩ =>
    show win1_6.index ⟨(i 0).val / 1024, ht⟩ (0 : Fin 2) * 1024 ≤ (i 0).val ∧ (i 0).val < win1_6.index ⟨(i 0).val / 1024, ht⟩ (0 : Fin 2) * 1024 + 1024
    rw [o0]
    show (i 0).val / 1024 * 1024 ≤ (i 0).val ∧ (i 0).val < (i 0).val / 1024 * 1024 + 1024
    omega
  | ⟨1, _⟩ =>
    show win1_6.index ⟨(i 0).val / 1024, ht⟩ (1 : Fin 2) * 47 ≤ (i 1).val ∧ (i 1).val < win1_6.index ⟨(i 0).val / 1024, ht⟩ (1 : Fin 2) * 47 + 47
    rw [o1]
    omega

/-- THE RESULT ARRAY after the grid is `logits` of the arrays as the grid finds them. -/
theorem logits_final (c : Dev nD) : (dat1 V c).arrAt 6 cfg1.N
    = logits (V c main_v29) (V c main_v38) (V c main_v19) (V c main_arg8) (V c main_arg10) (V c main_arg9) :=
  (dat1 V c).arrAt_eq_of_cover 6 _ (fun t _ => flushed1_eq V c t) cover1

end Final

end Cert.KernelIdeal.Hand

end
-- ==== Proof.KernelValue.lean ====
/-
  The idealized kernel's result as one function of its eleven arguments.

  Composing the four stretches: the first grid leaves `hidden` of the first layer's neighbour sums, reciprocal degrees,
  features, weights and bias (`kHidden`); the second stretch builds the second layer's neighbour sums and reciprocal
  degrees from that array; the second grid leaves `logits` of those, of the hidden array itself and of the second
  layer's weights and bias (`kResult`). The last boundary's contents at the result buffer are `kResult` of the launch
  memory's argument arrays (`W4_result`).
-/
import proofs.«171095_j85203561218630_2_alg».proof.Proof.Gen.KernelIdeal.Frame
import proofs.«171095_j85203561218630_2_alg».proof.Proof.HostStages
import proofs.«171095_j85203561218630_2_alg».proof.Proof.Region0
import proofs.«171095_j85203561218630_2_alg».proof.Proof.Region1

set_option maxRecDepth 16384

noncomputable section

namespace Cert.KernelIdeal.Hand

open Cert.KernelIdeal Cert.KernelIdeal.Gen Idealize.ShloMosaic Idealize.ShloMosaic.TcCoe Idealize.SL.Sem
open Idealize.ShloMosaic.ValueIdx

/-- `hidden` of equal arrays is equal. -/
theorem hidden_congr {A A' : S90112x100.Idx → EReal} {s s' : S90112x1.Idx → EReal} {x x' : S991232x100.Idx → EReal}
    {Wl Wl' Wr Wr' : S100x256.Idx → EReal} {b b' : S256.Idx → EReal}
    (hA : A = A') (hs : s = s') (hx : x = x') (hl : Wl = Wl') (hr : Wr = Wr') (hb : b = b') :
    hidden A s x Wl Wr b = hidden A' s' x' Wl' Wr' b' := by
  subst hA hs hx hl hr hb; rfl

/-- `logits` of equal arrays is equal. -/
theorem logits_congr {A A' : S8192x256.Idx → EReal} {s s' : S8192x1.Idx → EReal} {hid hid' : S90112x256.Idx → EReal}
    {Wl Wl' Wr Wr' : S256x47.Idx → EReal} {b b' : S47.Idx → EReal}
    (hA : A = A') (hs : s = s') (hh : hid = hid') (hl : Wl = Wl') (hr : Wr = Wr') (hb : b = b') :
    logits A s hid Wl Wr b = logits A' s' hid' Wl' Wr' b' := by
  subst hA hs hh hl hr hb; rfl

/-- The hidden array of the arguments: the first layer over its host-built aggregation inputs. -/
def kHidden (a0 : (⟨S991232x100, .f32⟩ : BufTy).Contents (Elt Ideal)) (a1 a2 : (⟨S901120, .i32⟩ : BufTy).Contents (Elt Ideal)) (a5 : (⟨S100x256, .f32⟩ : BufTy).Contents (Elt Ideal))
    (a6 : (⟨S256, .f32⟩ : BufTy).Contents (Elt Ideal)) (a7 : (⟨S100x256, .f32⟩ : BufTy).Contents (Elt Ideal)) : S90112x256.Idx → EReal :=
  hidden (nbrSum0 (F := Ideal) a0 a1 a2) (recip0 (F := Ideal) a2) a0 a5 a7 a6

/-- The result of the arguments: the second layer over its host-built aggregation inputs of the hidden array. -/
def kResult (a0 : (⟨S991232x100, .f32⟩ : BufTy).Contents (Elt Ideal)) (a1 a2 : (⟨S901120, .i32⟩ : BufTy).Contents (Elt Ideal)) (a3 a4 : (⟨S81920, .i32⟩ : BufTy).Contents (Elt Ideal))
    (a5 : (⟨S100x256, .f32⟩ : BufTy).Contents (Elt Ideal)) (a6 : (⟨S256, .f32⟩ : BufTy).Contents (Elt Ideal)) (a7 : (⟨S100x256, .f32⟩ : BufTy).Contents (Elt Ideal))
    (a8 : (⟨S256x47, .f32⟩ : BufTy).Contents (Elt Ideal)) (a9 : (⟨S47, .f32⟩ : BufTy).Contents (Elt Ideal)) (a10 : (⟨S256x47, .f32⟩ : BufTy).Contents (Elt Ideal)) : S8192x47.Idx → EReal :=
  logits (nbrSum1 (F := Ideal) (kHidden a0 a1 a2 a5 a6 a7) a3 a4) (recip1 (F := Ideal) a4) (kHidden a0 a1 a2 a5 a6 a7) a8 a10 a9

variable (m : (ℓ : Loc nD τ sig) → Buf (Elt Ideal) ℓ) (ρ : Dev nD → PrngReg)

/-- The hidden buffer at the first grid's exit. -/
theorem W2_hidden (c : Dev nD) : W2 m ρ c (Proc.devRef .tc main_v19)
    = kHidden (m ((c : Thread nD τ).loc main_arg0)) (m ((c : Thread nD τ).loc main_arg1)) (m ((c : Thread nD τ).loc main_arg2)) (m ((c : Thread nD τ).loc main_arg5)) (m ((c : Thread nD τ).loc main_arg6)) (m ((c : Thread nD τ).loc main_arg7)) :=
  (W2_arr m ρ c 6).trans ((hidden_final (V1 m ρ) c).trans
    (hidden_congr (W1_nbrSum m ρ c) (W1_recip m ρ c) (W1_arg0 m ρ c) (W1_arg5 m ρ c) (W1_arg7 m ρ c) (W1_arg6 m ρ c)))

/-- The result buffer at the second grid's exit, the program's last boundary. -/
theorem W4_result (c : Dev nD) : W4 m ρ c (Proc.devRef .tc main_v39)
    = kResult (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8)) (m ((c : Thread nD τ).loc main_arg9)) (m ((c : Thread nD τ).loc main_arg10)) :=
  (W4_arr m ρ c 6).trans ((logits_final (V3 m ρ) c).trans
    (logits_congr
      ((W3_nbrSum m ρ c).trans (by rw [W2_hidden m ρ c, W2_arg3 m ρ c, W2_arg4 m ρ c]))
      ((W3_recip m ρ c).trans (by rw [W2_arg4 m ρ c]))
      ((W3_hid m ρ c).trans (W2_hidden m ρ c))
      ((W3_arg8 m ρ c).trans (W2_arg8 m ρ c))
      ((W3_arg10 m ρ c).trans (W2_arg10 m ρ c))
      ((W3_arg9 m ρ c).trans (W2_arg9 m ρ c))))

end Cert.KernelIdeal.Hand

end
-- ==== Proof.Degrees.lean ====
/-
  Two facts about the clamped degrees, at the ideal values.

  The clamped degree of a node is the maximum of its in-degree and one, so it is at least one (`one_le_degree`);
  the reciprocal column holds, at row `r`, one divided by the clamped degree of `r` (`recip_apply`). These are what the
  law `a / c = a · (1 / c)` asks of the divisor. Each is first stated over arbitrary arrays and then read off the
  host-built ones.
-/
import proofs.«171095_j85203561218630_2_alg».proof.Proof.HostStages
import proofs.«171095_j85203561218630_2_alg».proof.Proof.SageSpec
import Idealize.ShloMosaic.Lib.IdealHost
import Idealize.ShloMosaic.Lib.Pipeline.Value
import Idealize.ShloMosaic.Lib.ValueIdx

set_option maxRecDepth 16384

noncomputable section

namespace Cert.KernelIdeal.Hand

open Cert.KernelIdeal Cert.KernelIdeal.Gen Idealize.ShloMosaic Idealize.ShloMosaic.ValueIdx

/-- A scalar constant broadcast to any shape reads the constant's value at every index. -/
theorem bcast_const_apply {t : Shape} (h : S_.BroadcastsInDim t ![]) (b : BitVec 32) (i : t.Idx) :
    (broadcastInDim t ![] h (constant (F := Ideal) S_ .f32 b) i : EReal) = Ideal.ofBits .f32 b := rfl

/-- The host's quotient of two arrays, at an index. -/
theorem hostDivf_apply {s : Shape} (a b : FVec Ideal s .f32) (i : s.Idx) :
    (Host.divf a b i : EReal) = Ideal.div (a i) (b i) := rfl

/-- A maximum whose right operand is one at an index is at least one there. -/
theorem one_le_maximumf_of_right {s : Shape} (A B : FVec Ideal s .f32) (i : s.Idx) (hB : (B i : EReal) = 1) :
    (1 : EReal) ≤ maximumf A B i := by
  rw [maximumf_apply, hB]
  exact le_max_right _ _

/-- The first layer's clamped degree is at least one. -/
theorem one_le_degree0 (dst : (⟨S901120, .i32⟩ : BufTy).Contents (Elt Ideal)) (r : Fin 90112) :
    (1 : EReal) ≤ degree0 (F := Ideal) dst (ix1 r) := by
  unfold degree0
  exact one_le_maximumf_of_right _ _ (ix1 r) ((bcast_const_apply bcast_S_S90112 0x3F800000#32 (ix1 r)).trans Ideal.ofBits_one_f32)

/-- The first layer's reciprocal column at row `r`: one over the clamped degree of `r`. -/
theorem recip0_apply (dst : (⟨S901120, .i32⟩ : BufTy).Contents (Elt Ideal)) (r : Fin 90112) :
    (recip0 (F := Ideal) dst (ix2 r (0 : Fin 1)) : EReal) = Ideal.div 1 (degree0 (F := Ideal) dst (ix1 r)) := by
  unfold recip0
  refine (broadcastInDim_apply _ bcast_S90112_S90112x1_0 _ (ix2 r (0 : Fin 1)) (ix1 r) (fun a => match a with
    | ⟨0, _⟩ => by show r.val = if (90112 : Nat) = 1 then 0 else r.val; rw [if_neg (by decide)])).trans ?_
  rw [hostDivf_apply, bcast_const_apply, Ideal.ofBits_one_f32]

/-- The second layer's clamped degree is at least one. -/
theorem one_le_degree1 (dst : (⟨S81920, .i32⟩ : BufTy).Contents (Elt Ideal)) (r : Fin 8192) :
    (1 : EReal) ≤ degree1 (F := Ideal) dst (ix1 r) := by
  unfold degree1
  exact one_le_maximumf_of_right _ _ (ix1 r) ((bcast_const_apply bcast_S_S8192 0x3F800000#32 (ix1 r)).trans Ideal.ofBits_one_f32)

/-- The second layer's reciprocal column at row `r`: one over the clamped degree of `r`. -/
theorem recip1_apply (dst : (⟨S81920, .i32⟩ : BufTy).Contents (Elt Ideal)) (r : Fin 8192) :
    (recip1 (F := Ideal) dst (ix2 r (0 : Fin 1)) : EReal) = Ideal.div 1 (degree1 (F := Ideal) dst (ix1 r)) := by
  unfold recip1
  refine (broadcastInDim_apply _ bcast_S8192_S8192x1_0 _ (ix2 r (0 : Fin 1)) (ix1 r) (fun a => match a with
    | ⟨0, _⟩ => by show r.val = if (8192 : Nat) = 1 then 0 else r.val; rw [if_neg (by decide)])).trans ?_
  rw [hostDivf_apply, bcast_const_apply, Ideal.ofBits_one_f32]

end Cert.KernelIdeal.Hand

end
-- ==== Proof.LibHostLayout.lean ====
/-
  Host layout operations of small rank read at an index.

  A reference written with keepdims and with a bias added along rows broadcasts in two steps: a vector `[a]` to a column
  `[a, 1]` and the column over the row `[a, b]`; a vector `[b]` to one row `[1, b]` and the row down the rows `[a, b]`. A
  leading block of rows is a slice at offset zero. Each is read here at an index built by `ix2`, in the style of the
  library's layout lemmas.
-/
import Idealize.ShloMosaic.Lib.Pipeline.Value
import Idealize.ShloMosaic.Lib.ValueIdx

noncomputable section

namespace Cert.LibHostLayout

open Idealize.ShloMosaic Idealize.ShloMosaic.ValueIdx

variable {α : Type}

/-- GENERAL LEMMA. An `[a]` array broadcast in dimension 0 to `[a, 1]` reads, at `(p, u)`, the operand at `p`. -/
theorem broadcastInDim_a_a1_apply {a : ℕ} (x : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h x (ix2 p u) = x (ix1 p) :=
  broadcastInDim_apply ![0] h x (ix2 p u) (ix1 p) fun ax => by
    match ax with
    | ⟨0, _⟩ =>
      show p.val = if a = 1 then 0 else p.val
      split
      · have := p.isLt; omega
      · rfl

/-- GENERAL LEMMA. An `[a, 1]` column broadcast in dimensions (0, 1) to `[a, b]` reads, at `(p, c)`, the column at `(p, 0)`. -/
theorem broadcastInDim_a1_ab_apply {a b : ℕ} (v : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) :=
  broadcastInDim_apply ![0, 1] h v (ix2 p c) (ix2 p (0 : Fin 1)) fun ax => by
    match ax with
    | ⟨0, _⟩ =>
      show p.val = if a = 1 then 0 else p.val
      split
      · have := p.isLt; omega
      · rfl
    | ⟨1, _⟩ => rfl

/-- GENERAL LEMMA. A `[b]` array broadcast in dimension 1 to `[1, b]` reads, at `(u, c)`, the operand at `c`. -/
theorem broadcastInDim_b_1b_apply {b : ℕ} (x : (⟨1, ![b]⟩ : Shape).Idx → α)
    (h : (⟨1, ![b]⟩ : Shape).BroadcastsInDim ⟨2, ![1, b]⟩ ![1]) (u : Fin 1) (c : Fin b) :
    broadcastInDim ⟨2, ![1, b]⟩ ![1] h x (ix2 u c) = x (ix1 c) :=
  broadcastInDim_apply ![1] h x (ix2 u c) (ix1 c) fun ax => by
    match ax with
    | ⟨0, _⟩ =>
      show c.val = if b = 1 then 0 else c.val
      split
      · have := c.isLt; omega
      · rfl

/-- GENERAL LEMMA. A `[1, b]` row broadcast in dimensions (0, 1) to `[a, b]` reads, at `(p, c)`, the row at `(0, c)`. -/
theorem broadcastInDim_1b_ab_apply {a b : ℕ} (v : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h v (ix2 p c) = v (ix2 (0 : Fin 1) c) :=
  broadcastInDim_apply ![0, 1] h v (ix2 p c) (ix2 (0 : Fin 1) c) fun ax => by
    match ax with
    | ⟨0, _⟩ => rfl
    | ⟨1, _⟩ =>
      show c.val = if b = 1 then 0 else c.val
      split
      · have := c.isLt; omega
      · rfl

/-- GENERAL LEMMA. The leading `m` rows of an `[n, b]` array, sliced at offset zero, read at `(p, c)` the array at `(p, c)`. -/
theorem slice_rows_apply {n m b : ℕ} (x : (⟨2, ![n, b]⟩ : Shape).Idx → α)
    (h : (⟨2, ![n, b]⟩ : Shape).Slices ![0, 0] ⟨2, ![m, b]⟩) (p : Fin m) (hp : p.val < n) (c : Fin b) :
    extractStridedSlice ⟨2, ![m, b]⟩ ![0, 0] x h (ix2 p c) = x (ix2 (⟨p.val, hp⟩ : Fin n) c) :=
  extractStridedSlice_apply ![0, 0] x h (ix2 p c) (ix2 (⟨p.val, hp⟩ : Fin n) c) fun ax => by
    match ax with
    | ⟨0, _⟩ => show p.val = 0 + p.val; omega
    | ⟨1, _⟩ => show c.val = 0 + c.val; omega

end Cert.LibHostLayout

end
-- ==== Proof.RefLayers.lean ====
/-
  The reference's layers over arbitrary arrays, read entry by entry.

  The reference's first layer (`refLayer0`), its second layer before the softmax (`refPre1`) and its row-wise log-softmax
  (`refLsm`) are written here as the host operations the reference applies, over ARBITRARY neighbour sums `A`, clamped
  degrees `C` and feature arrays. Read at an index: a matrix product is the sum over the contracted axis; dividing by the
  degree broadcast as a column over the row divides entry `(r, k)` by `C r`; the bias broadcast as a row adds `b q`; the
  leading rows sliced out of the feature array are its rows `r`; a maximum-reduce from −∞ is the fold of `max` over the
  row, and taking its maximum with −∞ once more changes nothing; a sum-reduce from zero is the row's sum. So entry
  `(r, q)` of each is `max (linDiv … r q) 0`, `linDiv … r q` and `logSoftmax` of row `r` at `q`.
-/
import proofs.«171095_j85203561218630_2_alg».proof.Proof.Gen.ReferenceIdeal
import proofs.«171095_j85203561218630_2_alg».proof.Proof.SageSpec
import proofs.«171095_j85203561218630_2_alg».proof.Proof.LibDotSum
import proofs.«171095_j85203561218630_2_alg».proof.Proof.LibKeepdims
import proofs.«171095_j85203561218630_2_alg».proof.Proof.LibHostLayout
import Idealize.ShloMosaic.Lib.IdealHost
import Idealize.ShloMosaic.Lib.ValueIdx
import Idealize.ShloMosaic.Lib.Pipeline.Value
import Idealize.ShloMosaic.PureOps.Ideal.Laws

set_option maxRecDepth 16384

noncomputable section

namespace Cert.ReferenceIdeal.Hand

open Cert.ReferenceIdeal Cert.ReferenceIdeal.Gen Idealize.ShloMosaic Idealize.ShloMosaic.ValueIdx

/-! ## The first layer -/

/-- The first layer's product contraction at `(r, q)`: the sum over the 100 contracted positions. -/
theorem dotR0_sum (l : S90112x100.Idx → EReal) (w : S100x256.Idx → EReal) (r : Fin 90112) (q : Fin 256) :
    ∑ k : dot_S90112x100_S100x256_S90112x256_1_0_0_1_n_n.contr.Idx,
        l (dot_S90112x100_S100x256_S90112x256_1_0_0_1_n_n.lhsIdx (ix2 r q) k) * w (dot_S90112x100_S100x256_S90112x256_1_0_0_1_n_n.rhsIdx (ix2 r q) k)
      = ∑ k : Fin 100, l (ix2 r k) * w (ix2 k q) :=
  Cert.LibDotSum.sum_contr_eq_sum_fin dot_S90112x100_S100x256_S90112x256_1_0_0_1_n_n rfl rfl
    (fun _ _ => rfl) (fun _ _ => rfl) (fun _ _ => rfl) (fun _ _ => rfl) l w (ix2 r q)

/-- The reference's first layer over arbitrary arrays. -/
def refLayer0 (A : FVec Ideal S90112x100 .f32) (C : FVec Ideal S90112 .f32) (x0 : FVec Ideal S991232x100 .f32)
    (x5 x7 : FVec Ideal S100x256 .f32) (x6 : FVec Ideal S256 .f32) : FVec Ideal S90112x256 .f32 :=
  maximumf
    (addf
      (addf
        (Host.dotGeneral dot_S90112x100_S100x256_S90112x256_1_0_0_1_n_n none
          (Host.divf A (broadcastInDim S90112x100 ![0, 1] bcast_S90112x1_S90112x100_0_1
            (broadcastInDim S90112x1 ![0] bcast_S90112_S90112x1_0 C))) x5)
        (broadcastInDim S90112x256 ![0, 1] bcast_S1x256_S90112x256_0_1 (broadcastInDim S1x256 ![1] bcast_S256_S1x256_1 x6)))
      (Host.dotGeneral dot_S90112x100_S100x256_S90112x256_1_0_0_1_n_n none
        (extractStridedSlice S90112x100 ![0, 0] x0 slices_S991232x100_S90112x100_0_0) x7))
    (broadcastInDim S90112x256 ![] bcast_S_S90112x256 (constant S_ .f32 0x00000000#32))

/-- Entry `(r, q)` of the reference's first layer. -/
theorem refLayer0_apply (A : FVec Ideal S90112x100 .f32) (C : FVec Ideal S90112 .f32) (x0 : FVec Ideal S991232x100 .f32)
    (x5 x7 : FVec Ideal S100x256 .f32) (x6 : FVec Ideal S256 .f32) (r : Fin 90112) (q : Fin 256) :
    refLayer0 A C x0 x5 x7 x6 (ix2 r q)
      = max (Cert.Sage.linDiv (fun (r : Fin 90112) (k : Fin 100) => A (ix2 r k)) (fun (r : Fin 90112) => C (ix1 r))
          (fun (r : Fin 90112) (k : Fin 100) => x0 (ix2 (⟨r.val, by have := r.isLt; omega⟩ : Fin 991232) k))
          (fun (k : Fin 100) (j : Fin 256) => x5 (ix2 k j)) (fun (k : Fin 100) (j : Fin 256) => x7 (ix2 k j)) (fun (j : Fin 256) => x6 (ix1 j))
          r q) 0 := by
  have hr : r.val < 991232 := by have := r.isLt; omega
  have eC : ∀ k : Fin 100, broadcastInDim S90112x100 ![0, 1] bcast_S90112x1_S90112x100_0_1
      (broadcastInDim S90112x1 ![0] bcast_S90112_S90112x1_0 C) (ix2 r k) = C (ix1 r) := fun k =>
    (Cert.LibHostLayout.broadcastInDim_a1_ab_apply _ _ r k).trans (Cert.LibHostLayout.broadcastInDim_a_a1_apply _ _ r (0 : Fin 1))
  have eB : broadcastInDim S90112x256 ![0, 1] bcast_S1x256_S90112x256_0_1 (broadcastInDim S1x256 ![1] bcast_S256_S1x256_1 x6) (ix2 r q)
      = x6 (ix1 q) :=
    (Cert.LibHostLayout.broadcastInDim_1b_ab_apply _ _ r q).trans (Cert.LibHostLayout.broadcastInDim_b_1b_apply _ _ (0 : Fin 1) q)
  have eZ : broadcastInDim S90112x256 ![] bcast_S_S90112x256 (constant (F := Ideal) S_ .f32 0x00000000#32) (ix2 r q) = (0 : EReal) :=
    (broadcastInDim_scalar_apply bcast_S_S90112x256 _ (ix2 r q)).trans Ideal.ofBits_zero_f32
  unfold refLayer0 Cert.Sage.linDiv
  simp only [maximumf_apply, addf_apply, Host.dotGeneral, Ideal.dotGeneral_apply, dotR0_sum]
  simp only [hostDivf_apply, eC, eB, eZ, Cert.LibHostLayout.slice_rows_apply _ _ r hr]

/-! ## The second layer before the softmax -/

/-- The second layer's product contraction at `(r, j)`: the sum over the 256 contracted positions. -/
theorem dotR1_sum (l : S8192x256.Idx → EReal) (w : S256x47.Idx → EReal) (r : Fin 8192) (j : Fin 47) :
    ∑ k : dot_S8192x256_S256x47_S8192x47_1_0_0_1_n_n.contr.Idx,
        l (dot_S8192x256_S256x47_S8192x47_1_0_0_1_n_n.lhsIdx (ix2 r j) k) * w (dot_S8192x256_S256x47_S8192x47_1_0_0_1_n_n.rhsIdx (ix2 r j) k)
      = ∑ k : Fin 256, l (ix2 r k) * w (ix2 k j) :=
  Cert.LibDotSum.sum_contr_eq_sum_fin dot_S8192x256_S256x47_S8192x47_1_0_0_1_n_n rfl rfl
    (fun _ _ => rfl) (fun _ _ => rfl) (fun _ _ => rfl) (fun _ _ => rfl) l w (ix2 r j)

/-- The reference's second layer before the softmax, over arbitrary arrays. -/
def refPre1 (A : FVec Ideal S8192x256 .f32) (C : FVec Ideal S8192 .f32) (hid : FVec Ideal S90112x256 .f32)
    (x8 x10 : FVec Ideal S256x47 .f32) (x9 : FVec Ideal S47 .f32) : FVec Ideal S8192x47 .f32 :=
  addf
    (addf
      (Host.dotGeneral dot_S8192x256_S256x47_S8192x47_1_0_0_1_n_n none
        (Host.divf A (broadcastInDim S8192x256 ![0, 1] bcast_S8192x1_S8192x256_0_1
          (broadcastInDim S8192x1 ![0] bcast_S8192_S8192x1_0 C))) x8)
      (broadcastInDim S8192x47 ![0, 1] bcast_S1x47_S8192x47_0_1 (broadcastInDim S1x47 ![1] bcast_S47_S1x47_1 x9)))
    (Host.dotGeneral dot_S8192x256_S256x47_S8192x47_1_0_0_1_n_n none
      (extractStridedSlice S8192x256 ![0, 0] hid slices_S90112x256_S8192x256_0_0) x10)

/-- Entry `(r, j)` of the reference's second layer before the softmax. -/
theorem refPre1_apply (A : FVec Ideal S8192x256 .f32) (C : FVec Ideal S8192 .f32) (hid : FVec Ideal S90112x256 .f32)
    (x8 x10 : FVec Ideal S256x47 .f32) (x9 : FVec Ideal S47 .f32) (r : Fin 8192) (j : Fin 47) :
    refPre1 A C hid x8 x10 x9 (ix2 r j)
      = Cert.Sage.linDiv (fun (r : Fin 8192) (k : Fin 256) => A (ix2 r k)) (fun (r : Fin 8192) => C (ix1 r))
          (fun (r : Fin 8192) (k : Fin 256) => hid (ix2 (⟨r.val, by have := r.isLt; omega⟩ : Fin 90112) k))
          (fun (k : Fin 256) (j : Fin 47) => x8 (ix2 k j)) (fun (k : Fin 256) (j : Fin 47) => x10 (ix2 k j)) (fun (j : Fin 47) => x9 (ix1 j))
          r j := by
  have hr : r.val < 90112 := by have := r.isLt; omega
  have eC : ∀ k : Fin 256, broadcastInDim S8192x256 ![0, 1] bcast_S8192x1_S8192x256_0_1
      (broadcastInDim S8192x1 ![0] bcast_S8192_S8192x1_0 C) (ix2 r k) = C (ix1 r) := fun k =>
    (Cert.LibHostLayout.broadcastInDim_a1_ab_apply _ _ r k).trans (Cert.LibHostLayout.broadcastInDim_a_a1_apply _ _ r (0 : Fin 1))
  have eB : broadcastInDim S8192x47 ![0, 1] bcast_S1x47_S8192x47_0_1 (broadcastInDim S1x47 ![1] bcast_S47_S1x47_1 x9) (ix2 r j)
      = x9 (ix1 j) :=
    (Cert.LibHostLayout.broadcastInDim_1b_ab_apply _ _ r j).trans (Cert.LibHostLayout.broadcastInDim_b_1b_apply _ _ (0 : Fin 1) j)
  unfold refPre1 Cert.Sage.linDiv
  simp only [addf_apply, Host.dotGeneral, Ideal.dotGeneral_apply, dotR1_sum]
  simp only [hostDivf_apply, eC, eB, Cert.LibHostLayout.slice_rows_apply _ _ r hr]

/-! ## The row-wise log-softmax -/

/-- The row maximum, laid out over the row: the maximum-reduce from −∞, once more against −∞, as a column, over the row. -/
def shiftCol (o : FVec Ideal S8192x47 .f32) : FVec Ideal S8192x47 .f32 :=
  broadcastInDim S8192x47 ![0, 1] bcast_S8192x1_S8192x47_0_1
    (broadcastInDim S8192x1 ![0] bcast_S8192_S8192x1_0
      (maximumf (broadcastInDim S8192 ![] bcast_S_S8192 (constant S_ .f32 0xFF800000#32))
        (Host.reduce FloatOps.maximumf o (constant (F := Ideal) S_ .f32 0xFF800000#32) reducesTo_S8192x47_S8192_d1 h_S_)))

/-- The reference's log-softmax of a block. -/
def refLsm (o : FVec Ideal S8192x47 .f32) : FVec Ideal S8192x47 .f32 :=
  subf (subf o (shiftCol o))
    (broadcastInDim S8192x47 ![0, 1] bcast_S8192x1_S8192x47_0_1
      (Host.log (broadcastInDim S8192x1 ![0] bcast_S8192_S8192x1_0
        (Host.reduceAdd (Host.exp (subf o (shiftCol o))) (constant (F := Ideal) S_ .f32 0x00000000#32) reducesTo_S8192x47_S8192_d1 h_S_))))

/-- The reduced index `r` with column `k` put back is `(r, k)`. -/
theorem lift_row_ref (h : S8192x47.Reduces [1] S8192) (r : Fin 8192) (k : Fin 47) : h.lift (ix1 r) k = ix2 r k :=
  Cert.LibKeepdims.lift_row h r k

/-- The shift at any column of row `r` is the row's maximum. -/
theorem shiftCol_apply (o : FVec Ideal S8192x47 .f32) (r : Fin 8192) (c : Fin 47) :
    shiftCol o (ix2 r c) = Cert.Sage.rowMax (fun j : Fin 47 => o (ix2 r j)) := by
  have hred : S8192x47.Reduces [1] S8192 := by decide
  unfold shiftCol
  rw [Cert.LibHostLayout.broadcastInDim_a1_ab_apply, Cert.LibHostLayout.broadcastInDim_a_a1_apply, maximumf_apply,
    broadcastInDim_scalar_apply, constant_apply,
    Host.reduce_eq_fold_single FloatOps.maximumf o _ reducesTo_S8192x47_S8192_d1 hred h_S_ (ix1 r), Cert.Sage.max_neg_inf]
  have hf : (o ∘ hred.lift (ix1 r)) = fun j : Fin 47 => o (ix2 r j) := funext fun k => congrArg o (lift_row_ref hred r k)
  rw [hf]
  rfl

/-- The host's sum over a row from zero: the row's sum. -/
theorem refRowSum_apply (x : FVec Ideal S8192x47 .f32) (r : Fin 8192) :
    Host.reduceAdd x (constant (F := Ideal) S_ .f32 0x00000000#32) reducesTo_S8192x47_S8192_d1 h_S_ (ix1 r) = ∑ k : Fin 47, x (ix2 r k) := by
  have hred : S8192x47.Reduces [1] S8192 := by decide
  rw [hostReduceAdd_apply, Ideal.hostReduceAdd_single reducesTo_S8192x47_S8192_d1 hred, constant_apply, Ideal.ofBits_zero_f32, zero_add]
  exact Finset.sum_congr rfl fun k _ => congrArg x (lift_row_ref hred r k)

theorem hostExp_apply {s : Shape} (a : FVec Ideal s .f32) (i : s.Idx) : Host.exp a i = Ideal.exp (a i) := rfl
theorem hostLog_apply {s : Shape} (a : FVec Ideal s .f32) (i : s.Idx) : Host.log a i = Ideal.log (a i) := rfl

/-- Entry `(r, q)` of the reference's log-softmax: the log-softmax of row `r` at `q`. -/
theorem refLsm_apply (o : FVec Ideal S8192x47 .f32) (r : Fin 8192) (q : Fin 47) :
    refLsm o (ix2 r q) = Cert.Sage.logSoftmax (fun j : Fin 47 => o (ix2 r j)) q := by
  have eL : ∀ v : FVec Ideal S8192 .f32, broadcastInDim S8192x47 ![0, 1] bcast_S8192x1_S8192x47_0_1
      (Host.log (broadcastInDim S8192x1 ![0] bcast_S8192_S8192x1_0 v)) (ix2 r q) = Ideal.log (v (ix1 r)) := fun v =>
    (Cert.LibHostLayout.broadcastInDim_a1_ab_apply _ _ r q).trans ((hostLog_apply _ _).trans
      (congrArg Ideal.log (Cert.LibHostLayout.broadcastInDim_a_a1_apply _ _ r (0 : Fin 1))))
  unfold refLsm Cert.Sage.logSoftmax
  simp only [subf_apply, shiftCol_apply]
  rw [eL, refRowSum_apply]
  simp only [hostExp_apply, subf_apply, shiftCol_apply]

end Cert.ReferenceIdeal.Hand

end
-- ==== Proof.RefSide.lean ====
/-
  The reference's two layers read entry by entry.

  The reference computes each layer on whole arrays: the neighbour sums divided entry by entry by the clamped degree,
  times the first weight matrix, plus the bias, plus the nodes' own rows times the second weight matrix; the first layer
  ends in a maximum with zero, the second in a row-wise log-softmax. Its stages, one per operation, compose to exactly the
  layer forms stated over arbitrary arrays (`hidden_stage`, `pre_stage`, `lsm_stage`: by unfolding the stages, the neighbour
  sums and the clamped degrees left unopened), so entry `(r, q)` of the hidden array is `max (linDiv … r q) 0`
  (`hidden_ref_apply`) and entry `(r, q)` of the result is the log-softmax of `linDiv … r` at `q` (`result_ref_apply`).
-/
import proofs.«171095_j85203561218630_2_alg».proof.Proof.RefReadP
import proofs.«171095_j85203561218630_2_alg».proof.Proof.RefLayers

set_option maxRecDepth 16384

noncomputable section

namespace Cert.ReferenceIdeal.Hand

open Cert.ReferenceIdeal Cert.ReferenceIdeal.Gen Cert.ReferenceIdeal.Read Idealize.ShloMosaic Idealize.ShloMosaic.ValueIdx

/-! ## The stages compose to the layer forms -/

/-- The hidden array is the first layer of the reference's neighbour sums and clamped degrees. -/
theorem hidden_stage (x0 : (⟨S991232x100, .f32⟩ : BufTy).Contents (Elt Ideal)) (x1 x2 : (⟨S901120, .i32⟩ : BufTy).Contents (Elt Ideal)) (x5 : (⟨S100x256, .f32⟩ : BufTy).Contents (Elt Ideal)) (x6 : (⟨S256, .f32⟩ : BufTy).Contents (Elt Ideal)) (x7 : (⟨S100x256, .f32⟩ : BufTy).Contents (Elt Ideal)) :
    val_main_v26 (F := Ideal) x0 x1 x2 x5 x6 x7
      = refLayer0 (val_main_v10 (F := Ideal) x0 x1 x2) (val_main_v16 (F := Ideal) x2) x0 x5 x7 x6 := by
  unfold val_main_v26 val_main_v25 val_main_v23 val_main_v20 val_main_v19 val_main_v18 val_main_v17 val_main_v22 val_main_v21 val_main_v24
    val_main_v0 val_main_call0_v0 val_main_call0_cst refLayer0
  rfl

/-- The block before the softmax is the second layer of the reference's neighbour sums, clamped degrees and hidden array. -/
theorem pre_stage (x0 : (⟨S991232x100, .f32⟩ : BufTy).Contents (Elt Ideal)) (x1 x2 : (⟨S901120, .i32⟩ : BufTy).Contents (Elt Ideal)) (x3 x4 : (⟨S81920, .i32⟩ : BufTy).Contents (Elt Ideal)) (x5 : (⟨S100x256, .f32⟩ : BufTy).Contents (Elt Ideal)) (x6 : (⟨S256, .f32⟩ : BufTy).Contents (Elt Ideal)) (x7 : (⟨S100x256, .f32⟩ : BufTy).Contents (Elt Ideal)) (x8 : (⟨S256x47, .f32⟩ : BufTy).Contents (Elt Ideal)) (x9 : (⟨S47, .f32⟩ : BufTy).Contents (Elt Ideal)) (x10 : (⟨S256x47, .f32⟩ : BufTy).Contents (Elt Ideal)) :
    val_main_v52 (F := Ideal) x0 x1 x2 x3 x4 x5 x6 x7 x8 x9 x10
      = refPre1 (val_main_v37 (F := Ideal) x0 x1 x2 x3 x4 x5 x6 x7) (val_main_v43 (F := Ideal) x4) (val_main_v26 (F := Ideal) x0 x1 x2 x5 x6 x7) x8 x10 x9 := by
  unfold val_main_v52 val_main_v50 val_main_v47 val_main_v46 val_main_v45 val_main_v44 val_main_v49 val_main_v48 val_main_v51 val_main_v27 refPre1
  rfl

/-- The result is the log-softmax of the block before it. -/
theorem lsm_stage (x0 : (⟨S991232x100, .f32⟩ : BufTy).Contents (Elt Ideal)) (x1 x2 : (⟨S901120, .i32⟩ : BufTy).Contents (Elt Ideal)) (x3 x4 : (⟨S81920, .i32⟩ : BufTy).Contents (Elt Ideal)) (x5 : (⟨S100x256, .f32⟩ : BufTy).Contents (Elt Ideal)) (x6 : (⟨S256, .f32⟩ : BufTy).Contents (Elt Ideal)) (x7 : (⟨S100x256, .f32⟩ : BufTy).Contents (Elt Ideal)) (x8 : (⟨S256x47, .f32⟩ : BufTy).Contents (Elt Ideal)) (x9 : (⟨S47, .f32⟩ : BufTy).Contents (Elt Ideal)) (x10 : (⟨S256x47, .f32⟩ : BufTy).Contents (Elt Ideal)) :
    val_main_v53 (F := Ideal) x0 x1 x2 x3 x4 x5 x6 x7 x8 x9 x10 = refLsm (val_main_v52 (F := Ideal) x0 x1 x2 x3 x4 x5 x6 x7 x8 x9 x10) := by
  unfold val_main_v53 val_main_call1_v10 val_main_call1_v9 val_main_call1_v8 val_main_call1_v7 val_main_call1_v6 val_main_call1_v5
    val_main_call1_v4 val_main_call1_v3 val_main_call1_v2 val_main_call1_v1 val_main_call1_v0 val_main_call1_cst val_main_call1_cst_0
    val_main_call1_cst_1 refLsm shiftCol
  rfl

/-! ## The first layer -/

/-- Entry `(r, q)` of the reference's hidden array. -/
theorem hidden_ref_apply (x0 : (⟨S991232x100, .f32⟩ : BufTy).Contents (Elt Ideal)) (x1 x2 : (⟨S901120, .i32⟩ : BufTy).Contents (Elt Ideal)) (x5 : (⟨S100x256, .f32⟩ : BufTy).Contents (Elt Ideal)) (x6 : (⟨S256, .f32⟩ : BufTy).Contents (Elt Ideal)) (x7 : (⟨S100x256, .f32⟩ : BufTy).Contents (Elt Ideal)) (r : Fin 90112) (q : Fin 256) :
    val_main_v26 (F := Ideal) x0 x1 x2 x5 x6 x7 (ix2 r q)
      = max (Cert.Sage.linDiv (fun (r : Fin 90112) (k : Fin 100) => val_main_v10 (F := Ideal) x0 x1 x2 (ix2 r k))
          (fun (r : Fin 90112) => val_main_v16 (F := Ideal) x2 (ix1 r))
          (fun (r : Fin 90112) (k : Fin 100) => x0 (ix2 (⟨r.val, by have := r.isLt; omega⟩ : Fin 991232) k))
          (fun (k : Fin 100) (j : Fin 256) => x5 (ix2 k j)) (fun (k : Fin 100) (j : Fin 256) => x7 (ix2 k j)) (fun (j : Fin 256) => x6 (ix1 j))
          r q) 0 := by
  rw [hidden_stage]
  exact refLayer0_apply _ _ _ _ _ _ r q

/-! ## The second layer -/

/-- Row `r` of the reference's second layer before the softmax, over its own stages. -/
def refRow (x0 : (⟨S991232x100, .f32⟩ : BufTy).Contents (Elt Ideal)) (x1 x2 : (⟨S901120, .i32⟩ : BufTy).Contents (Elt Ideal)) (x3 x4 : (⟨S81920, .i32⟩ : BufTy).Contents (Elt Ideal)) (x5 : (⟨S100x256, .f32⟩ : BufTy).Contents (Elt Ideal)) (x6 : (⟨S256, .f32⟩ : BufTy).Contents (Elt Ideal)) (x7 : (⟨S100x256, .f32⟩ : BufTy).Contents (Elt Ideal)) (x8 : (⟨S256x47, .f32⟩ : BufTy).Contents (Elt Ideal)) (x9 : (⟨S47, .f32⟩ : BufTy).Contents (Elt Ideal)) (x10 : (⟨S256x47, .f32⟩ : BufTy).Contents (Elt Ideal)) (r : Fin 8192) (j : Fin 47) : EReal :=
  Cert.Sage.linDiv (fun (r : Fin 8192) (k : Fin 256) => val_main_v37 (F := Ideal) x0 x1 x2 x3 x4 x5 x6 x7 (ix2 r k))
    (fun (r : Fin 8192) => val_main_v43 (F := Ideal) x4 (ix1 r))
    (fun (r : Fin 8192) (k : Fin 256) => val_main_v26 (F := Ideal) x0 x1 x2 x5 x6 x7 (ix2 (⟨r.val, by have := r.isLt; omega⟩ : Fin 90112) k))
    (fun (k : Fin 256) (j : Fin 47) => x8 (ix2 k j)) (fun (k : Fin 256) (j : Fin 47) => x10 (ix2 k j)) (fun (j : Fin 47) => x9 (ix1 j)) r j

/-- Entry `(r, q)` of the reference's result: the log-softmax of row `r` at `q`. -/
theorem result_ref_apply (x0 : (⟨S991232x100, .f32⟩ : BufTy).Contents (Elt Ideal)) (x1 x2 : (⟨S901120, .i32⟩ : BufTy).Contents (Elt Ideal)) (x3 x4 : (⟨S81920, .i32⟩ : BufTy).Contents (Elt Ideal)) (x5 : (⟨S100x256, .f32⟩ : BufTy).Contents (Elt Ideal)) (x6 : (⟨S256, .f32⟩ : BufTy).Contents (Elt Ideal)) (x7 : (⟨S100x256, .f32⟩ : BufTy).Contents (Elt Ideal)) (x8 : (⟨S256x47, .f32⟩ : BufTy).Contents (Elt Ideal)) (x9 : (⟨S47, .f32⟩ : BufTy).Contents (Elt Ideal)) (x10 : (⟨S256x47, .f32⟩ : BufTy).Contents (Elt Ideal)) (r : Fin 8192) (q : Fin 47) :
    val_main_v53 (F := Ideal) x0 x1 x2 x3 x4 x5 x6 x7 x8 x9 x10 (ix2 r q)
      = Cert.Sage.logSoftmax (fun j : Fin 47 => refRow x0 x1 x2 x3 x4 x5 x6 x7 x8 x9 x10 r j) q := by
  rw [lsm_stage, refLsm_apply]
  refine congrArg (fun f => Cert.Sage.logSoftmax f q) (funext fun j => ?_)
  rw [pre_stage]
  exact refPre1_apply _ _ _ _ _ _ r j

end Cert.ReferenceIdeal.Hand

end
-- ==== Proof.Bridge.lean ====
/-
  The kernel's result and the reference's result are one function of the arguments.

  Layer by layer the two programs differ only in arrangement. Both build the same neighbour sums and the same clamped
  degrees on the host, by the same operations. The kernel then multiplies each neighbour-sum row by the reciprocal of the
  degree, adds the two matrix products and adds the bias last; the reference divides each entry by the degree and adds the
  bias between the products. A degree is a maximum with one, so it is at least one, and then `a / c = a · (1 / c)`; the
  rest is commutativity and associativity of addition (`Cert.Sage.linMul_eq_linDiv`). So the hidden arrays agree entry by
  entry (`hidden_bridge`), hence the second layer's aggregation inputs, built from the hidden array by the same host
  operations, agree too, and the same law under the log-softmax gives the results' equality (`result_bridge`).
-/
import proofs.«171095_j85203561218630_2_alg».proof.Proof.KernelValue
import proofs.«171095_j85203561218630_2_alg».proof.Proof.Degrees
import proofs.«171095_j85203561218630_2_alg».proof.Proof.RefSide

set_option maxRecDepth 16384

noncomputable section

namespace Cert.Bridge

open Idealize.ShloMosaic Idealize.ShloMosaic.ValueIdx
open Cert.KernelIdeal.Hand Cert.ReferenceIdeal.Hand Cert.ReferenceIdeal.Read

variable (a0 : (⟨Cert.KernelIdeal.S991232x100, .f32⟩ : BufTy).Contents (Elt Ideal)) (a1 a2 : (⟨Cert.KernelIdeal.S901120, .i32⟩ : BufTy).Contents (Elt Ideal)) (a3 a4 : (⟨Cert.KernelIdeal.S81920, .i32⟩ : BufTy).Contents (Elt Ideal))
  (a5 : (⟨Cert.KernelIdeal.S100x256, .f32⟩ : BufTy).Contents (Elt Ideal)) (a6 : (⟨Cert.KernelIdeal.S256, .f32⟩ : BufTy).Contents (Elt Ideal)) (a7 : (⟨Cert.KernelIdeal.S100x256, .f32⟩ : BufTy).Contents (Elt Ideal))
  (a8 : (⟨Cert.KernelIdeal.S256x47, .f32⟩ : BufTy).Contents (Elt Ideal)) (a9 : (⟨Cert.KernelIdeal.S47, .f32⟩ : BufTy).Contents (Elt Ideal)) (a10 : (⟨Cert.KernelIdeal.S256x47, .f32⟩ : BufTy).Contents (Elt Ideal))

/-! ## The host-built stages are the reference's, as whole arrays -/

/-- The first layer's neighbour sums. -/
theorem nbrSum0_eq : nbrSum0 (F := Ideal) a0 a1 a2 = val_main_v10 (F := Ideal) a0 a1 a2 := by
  unfold nbrSum0 srcCol0 val_main_v10 val_main_v8 val_main_cst val_main_v9 val_main_v7 val_main_v6 val_main_v5 val_main_v4 val_main_v3
    val_main_c_0 val_main_v2 val_main_v1 val_main_c
  rfl

/-- The first layer's clamped degrees. -/
theorem degree0_eq : degree0 (F := Ideal) a2 = val_main_v16 (F := Ideal) a2 := by
  unfold degree0 val_main_v16 val_main_v14 val_main_v12 val_main_cst_2 val_main_v13 val_main_v11 val_main_cst_1 val_main_v15 val_main_cst_3
  rfl

/-- The second layer's neighbour sums, of the reference's hidden array. -/
theorem nbrSum1_eq : nbrSum1 (F := Ideal) (val_main_v26 (F := Ideal) a0 a1 a2 a5 a6 a7) a3 a4
    = val_main_v37 (F := Ideal) a0 a1 a2 a3 a4 a5 a6 a7 := by
  unfold nbrSum1 srcCol1 val_main_v37 val_main_v35 val_main_cst_6 val_main_v36 val_main_v34 val_main_v33 val_main_v32 val_main_v31 val_main_v30
    val_main_c_5 val_main_v29 val_main_v28 val_main_c_4
  rfl

/-- The second layer's clamped degrees. -/
theorem degree1_eq : degree1 (F := Ideal) a4 = val_main_v43 (F := Ideal) a4 := by
  unfold degree1 val_main_v43 val_main_v41 val_main_v39 val_main_cst_8 val_main_v40 val_main_v38 val_main_cst_7 val_main_v42 val_main_cst_9
  rfl

/-! ## The two layers -/

/-- The two programs' hidden arrays are equal. -/
theorem hidden_bridge : kHidden a0 a1 a2 a5 a6 a7 = val_main_v26 (F := Ideal) a0 a1 a2 a5 a6 a7 := by
  funext i
  obtain ⟨r, q, rfl⟩ : ∃ (r : Fin 90112) (q : Fin 256), i = ix2 r q := ⟨i 0, i 1, eq_ix2 i⟩
  unfold kHidden
  rw [hidden_ix2, hidden_ref_apply]
  refine congrArg (fun z => max z 0) ?_
  have hs : (fun r : Fin 90112 => recip0 (F := Ideal) a2 (ix2 r (0 : Fin 1)))
      = fun r : Fin 90112 => Ideal.div 1 (degree0 (F := Ideal) a2 (ix1 r)) := funext fun r => recip0_apply a2 r
  rw [hs, nbrSum0_eq, degree0_eq]
  exact Cert.Sage.linMul_eq_linDiv _ (fun r : Fin 90112 => val_main_v16 (F := Ideal) a2 (ix1 r)) _ _ _ _
    (fun r => by rw [← degree0_eq]; exact one_le_degree0 a2 r) r q

/-- The two programs' results are equal. -/
theorem result_bridge : kResult a0 a1 a2 a3 a4 a5 a6 a7 a8 a9 a10 = val_main_v53 (F := Ideal) a0 a1 a2 a3 a4 a5 a6 a7 a8 a9 a10 := by
  funext i
  obtain ⟨r, q, rfl⟩ : ∃ (r : Fin 8192) (q : Fin 47), i = ix2 r q := ⟨i 0, i 1, eq_ix2 i⟩
  unfold kResult
  rw [hidden_bridge, logits_ix2, result_ref_apply]
  refine congrArg (fun f => Cert.Sage.logSoftmax f q) (funext fun j => ?_)
  unfold preRow refRow
  have hs : (fun r : Fin 8192 => recip1 (F := Ideal) a4 (ix2 r (0 : Fin 1)))
      = fun r : Fin 8192 => Ideal.div 1 (degree1 (F := Ideal) a4 (ix1 r)) := funext fun r => recip1_apply a4 r
  rw [hs, nbrSum1_eq, degree1_eq]
  exact Cert.Sage.linMul_eq_linDiv _ (fun r : Fin 8192 => val_main_v43 (F := Ideal) a4 (ix1 r)) _ _ _ _
    (fun r => by rw [← degree1_eq]; exact one_le_degree1 a4 r) r j

end Cert.Bridge

end
-- ==== Proof.lean ====
/-
  A two-layer neighbour-mean graph convolution, as a kernel program and as its reference, compute one function.

  Each layer of the network is `(A / C) · Wl + b + X · Wr`: `A` the sum of every target node's in-neighbours' feature rows,
  `C` the in-degree clamped below by one, `X` the nodes' own rows; the first layer ends in a maximum with zero, the second
  in a row-wise log-softmax. Both programs build `A` and `C` by the same gather and scatter-add operations on the host. The
  kernel program then runs each layer as a grid of row blocks that multiplies the neighbour sums by `1 / C`, adds the two
  matrix products and adds the bias last; the reference divides by `C` on whole arrays and adds the bias between the products.

  The proof: the kernel program's run leaves the result buffer at the last boundary's contents (Proof/KernelRun.lean); those
  are, block by block and then as whole arrays, the layer functions of the host-built inputs (Proof/Payload0, Payload1,
  Region0, Region1, HostStages, KernelValue.lean); the reference's run leaves its result at its composed stages, read
  entry by entry (Proof/RefSide.lean over the run and read modules); and the two are equal because `C ≥ 1` makes
  `a / C = a · (1 / C)` and addition of extended reals is commutative and associative (Proof/SageSpec.lean, Degrees.lean,
  Bridge.lean). No finiteness of the inputs is used. The idealization rewrote nothing, so `preserves` has nothing to show.
-/
import proofs.«171095_j85203561218630_2_alg».proof.Defs
import proofs.«171095_j85203561218630_2_alg».proof.Proof.Gen.Kernel
import proofs.«171095_j85203561218630_2_alg».proof.Proof.Gen.Kernel.Skeleton
import proofs.«171095_j85203561218630_2_alg».proof.Proof.Gen.Kernel.Launch
import proofs.«171095_j85203561218630_2_alg».proof.Proof.Gen.Kernel.Points
import proofs.«171095_j85203561218630_2_alg».proof.Proof.Gen.Kernel.Frame
import proofs.«171095_j85203561218630_2_alg».proof.Proof.Gen.KernelIdeal
import proofs.«171095_j85203561218630_2_alg».proof.Proof.Gen.KernelIdeal.Skeleton
import proofs.«171095_j85203561218630_2_alg».proof.Proof.Gen.KernelIdeal.Launch
import proofs.«171095_j85203561218630_2_alg».proof.Proof.Gen.KernelIdeal.Points
import proofs.«171095_j85203561218630_2_alg».proof.Proof.Gen.KernelIdeal.Frame
import proofs.«171095_j85203561218630_2_alg».proof.Proof.Gen.ReferenceIdeal
import proofs.«171095_j85203561218630_2_alg».proof.Proof.RefRunP
import proofs.«171095_j85203561218630_2_alg».proof.Proof.RefReadP
import proofs.«171095_j85203561218630_2_alg».proof.Proof.Gen.Pre_finite_inputs
import proofs.«171095_j85203561218630_2_alg».proof.Proof.KernelRun
import proofs.«171095_j85203561218630_2_alg».proof.Proof.KernelValue
import proofs.«171095_j85203561218630_2_alg».proof.Proof.Bridge
import Idealize.ShloMosaic.Adequacy
import Idealize.ShloMosaic.Init

set_option maxRecDepth 16384

noncomputable section

namespace Cert.Proof

open Idealize.ShloMosaic Idealize.SL.Sem

/-- The kernel program as printed runs and keeps its arguments. -/
theorem frame_k : Cert.frame_Kernel := fun m ρ _ => Cert.Kernel.Gen.frame m ρ

/-- The idealized kernel program runs and keeps its arguments. -/
theorem frame_ki : Cert.frame_KernelIdeal := fun m ρ _ => Cert.KernelIdeal.Gen.frame m ρ

/-- The idealized reference runs and keeps its arguments: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments both idealized programs end with the result at `kResult` of the arguments:
    the kernel program by its run and the boundary contents, the reference by its run, its last stage and the bridge. -/
theorem algebraic : Cert.algebraic_KernelIdeal_ReferenceIdeal := by
  intro m ρ m' ρ' _ hagree
  refine ⟨fun c => Cert.KernelIdeal.Hand.kResult (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)), ?_, ?_⟩
  · exact (θ_run Cert.KernelIdeal.defs _ _).mono
      (fun r h c => ⟨(h c).1.trans (Cert.KernelIdeal.Hand.W4_result m ρ c), (h c).2⟩)
      (Cert.KernelIdeal.Hand.run_result (F := Ideal) m ρ)
  · refine (θ_run Cert.ReferenceIdeal.defs _ _).mono (fun _ h c => ⟨(h c).1.trans ?_, (h c).2⟩)
      (Cert.ReferenceIdeal.Value.run (F := Ideal) m' ρ')
    obtain ⟨e0, e1, e2, e3, e4, e5, e6, e7, e8, e9, e10⟩ := hagree c
    rw [Cert.ReferenceIdeal.Read.val_main_v53_eq, e0, e1, e2, e3, e4, e5, e6, e7, e8, e9, e10]
    exact (Cert.Bridge.result_bridge _ _ _ _ _ _ _ _ _ _ _).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
